-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S16x6400 : Shape := ⟨2, ![16, 6400]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S16x6400 : S_.BroadcastsInDim S16x6400 (![] : Fin 0 → Fin S16x6400.rank)
  reducesTo_S16x6400_S_d0_1 : S16x6400.ReducesTo [0, 1] S_

variable [Facts]

def fn {F : FTy → Type} [FloatOps F] (main_arg0 : FVec F S16x256x64x64 .f32) (main_arg1 : FVec F S16x6400 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S16x6400 .f32 := Host.absf main_arg1
  let main_cst_0 : FVec F S_ .f32 := constant S_ .f32 0x7F800000#32
  let main_v5 : FVec F S16x6400 .f32 := broadcastInDim S16x6400 ![] bcast_S_S16x6400 main_cst_0
  let main_v6 : IVec S16x6400 1 := cmpf .olt main_v4 main_v5
  let main_c_1 : IVec S_ 1 := constantI S_ 1 1#1
  let main_v7 : IVec S_ 1 := (fun x v => Host.reduce IntOp.andi x v reducesTo_S16x6400_S_d0_1 h_S_) main_v6 main_c_1
  let main_v8 : IVec S_ 1 := andi main_v3 main_v7
  main_v8
-- ==== Kernel.lean ====
abbrev S16x256x64x64 : Shape := ⟨4, ![16, 256, 64, 64]⟩
abbrev S16x6400 : Shape := ⟨2, ![16, 6400]⟩
abbrev S16x256x4096 : Shape := ⟨3, ![16, 256, 4096]⟩
abbrev S16x3072 : Shape := ⟨2, ![16, 3072]⟩
abbrev S16x256x12 : Shape := ⟨3, ![16, 256, 12]⟩
abbrev S16x256 : Shape := ⟨2, ![16, 256]⟩
abbrev S16x256x1 : Shape := ⟨3, ![16, 256, 1]⟩
abbrev S1x256x4096 : Shape := ⟨3, ![1, 256, 4096]⟩
abbrev S1x256x12 : Shape := ⟨3, ![1, 256, 12]⟩
abbrev S1x256x1 : Shape := ⟨3, ![1, 256, 1]⟩
abbrev S256x4096 : Shape := ⟨2, ![256, 4096]⟩
abbrev S32x8x4096 : Shape := ⟨3, ![32, 8, 4096]⟩
abbrev S32x8 : Shape := ⟨2, ![32, 8]⟩
abbrev S32x8x1 : Shape := ⟨3, ![32, 8, 1]⟩
abbrev S32x1 : Shape := ⟨2, ![32, 1]⟩
abbrev S32x1x1 : Shape := ⟨3, ![32, 1, 1]⟩
abbrev S256x12 : Shape := ⟨2, ![256, 12]⟩
abbrev S256x1 : Shape := ⟨2, ![256, 1]⟩
abbrev S12x4096 : Shape := ⟨2, ![12, 4096]⟩

abbrev nBuf : Space → Nat
  | .hbm => 11
  | .vmem => 10
  | .smem => 0
  | _ => 0

abbrev bufTy : (tb : Table) → Fin (tcTables nBuf tb) → BufTy
  | .hbm, ⟨0, _⟩ => ⟨S16x256x64x64, .f32⟩
  | .hbm, ⟨1, _⟩ => ⟨S16x6400, .f32⟩
  | .hbm, ⟨2, _⟩ => ⟨S16x256x4096, .f32⟩
  | .hbm, ⟨3, _⟩ => ⟨S16x3072, .f32⟩
  | .hbm, ⟨4, _⟩ => ⟨S16x256x12, .f32⟩
  | .hbm, ⟨5, _⟩ => ⟨S16x3072, .f32⟩
  | .hbm, ⟨6, _⟩ => ⟨S16x256x12, .f32⟩
  | .hbm, ⟨7, _⟩ => ⟨S16x256, .f32⟩
  | .hbm, ⟨8, _⟩ => ⟨S16x256x1, .f32⟩
  | .hbm, ⟨9, _⟩ => ⟨S16x256x4096, .f32⟩
  | .hbm, ⟨10, _⟩ => ⟨S16x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x12, .f32⟩
  | .local _ .vmem, ⟨3, _⟩ => ⟨S1x256x12, .f32⟩
  | .local _ .vmem, ⟨4, _⟩ => ⟨S1x256x12, .f32⟩
  | .local _ .vmem, ⟨5, _⟩ => ⟨S1x256x12, .f32⟩
  | .local _ .vmem, ⟨6, _⟩ => ⟨S1x256x1, .f32⟩
  | .local _ .vmem, ⟨7, _⟩ => ⟨S1x256x1, .f32⟩
  | .local _ .vmem, ⟨8, _⟩ => ⟨S1x256x4096, .f32⟩
  | .local _ .vmem, ⟨9, _⟩ => ⟨S1x256x4096, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x256x64x64_S16x256x4096 : S16x256x64x64.ShapeCasts S16x256x4096
  slices_S16x6400_S16x3072_0_0 : S16x6400.Slices ![0, 0] S16x3072
  shapeCasts_S16x3072_S16x256x12 : S16x3072.ShapeCasts S16x256x12
  slices_S16x6400_S16x3072_0_3072 : S16x6400.Slices ![0, 3072] S16x3072
  slices_S16x6400_S16x256_0_6144 : S16x6400.Slices ![0, 6144] S16x256
  shapeCasts_S16x256_S16x256x1 : S16x256.ShapeCasts S16x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S32x8x4096 : S256x4096.ShapeCasts S32x8x4096
  reduces_S32x8x4096_S32x8 : S32x8x4096.Reduces [2] S32x8
  shapeCasts_S32x8_S32x8x1 : S32x8.ShapeCasts S32x8x1
  reduces_S32x8x1_S32x1 : S32x8x1.Reduces [1] S32x1
  shapeCasts_S32x1_S32x1x1 : S32x1.ShapeCasts S32x1x1
  broadcasts_S32x1x1_S32x8x4096 : S32x1x1.Broadcasts S32x8x4096
  shapeCasts_S32x8x4096_S256x4096 : S32x8x4096.ShapeCasts S256x4096
  inb_S1x256x12_S1x256x12_0_0_0 : ∀ a, (![0, 0, 0] : Fin 3 → Nat) a + S1x256x12.size a ≤ S1x256x12.size a
  h_S1x256x12 : 0 < S1x256x12.numel
  shapeCasts_S1x256x12_S256x12 : S1x256x12.ShapeCasts S256x12
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  bitsLt_bf16_f32 : FTy.bits .bf16 < FTy.bits .f32
  broadcasts_S256x1_S256x4096 : S256x1.Broadcasts S256x4096
  shapeCasts_S256x4096_S1x256x4096 : S256x4096.ShapeCasts S1x256x4096
  shapeCasts_S16x256x4096_S16x256x64x64 : S16x256x4096.ShapeCasts S16x256x64x64
  dot_S256x12_S256x4096_S12x4096_0_0_1_1_n_n_wf : DotDims.WF S256x12 S256x4096 S12x4096 [0] [0] [1] [1] [] []
  dot_S256x12_S12x4096_S256x4096_1_0_0_1_n_n_wf : DotDims.WF S256x12 S12x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x4096.size a
  hwx0_0 : ∀ i : grid0.Coords, EltTy.bits .f32 = 32 ∨ (Rect.block (s := S16x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x12.size a ≤ S16x256x12.size a
  hwx0_1 : ∀ i : grid0.Coords, EltTy.bits .f32 = 32 ∨ (Rect.block (s := S16x256x12) S1x256x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x12.size a ≤ S16x256x12.size a
  hwx0_2 : ∀ i : grid0.Coords, EltTy.bits .f32 = 32 ∨ (Rect.block (s := S16x256x12) S1x256x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S16x256x1.size a
  hwx0_3 : ∀ i : grid0.Coords, EltTy.bits .f32 = 32 ∨ (Rect.block (s := S16x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S16x256x4096.size a
  hwx0_4 : ∀ i : grid0.Coords, EltTy.bits .f32 = 32 ∨ (Rect.block (s := S16x256x4096) S1x256x4096.size (cc0_transform_4 i) (hinb0_4 i)).WholeWords (EltTy.packing .f32)

variable [Facts₀]

def dot_S256x12_S256x4096_S12x4096_0_0_1_1_n_n : DotDims S256x12 S256x4096 S12x4096 where
  lhsContracting := [0]
  rhsContracting := [0]
  lhsNonContracting := [1]
  rhsNonContracting := [1]
  lhsBatch := []
  rhsBatch := []
  wf := dot_S256x12_S256x4096_S12x4096_0_0_1_1_n_n_wf
def dot_S256x12_S12x4096_S256x4096_1_0_0_1_n_n : DotDims S256x12 S12x4096 S256x4096 where
  lhsContracting := [1]
  rhsContracting := [0]
  lhsNonContracting := [0]
  rhsNonContracting := [1]
  lhsBatch := []
  rhsBatch := []
  wf := dot_S256x12_S12x4096_S256x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S16x6400 : Shape := ⟨2, ![16, 6400]⟩
abbrev S16x32x32768 : Shape := ⟨3, ![16, 32, 32768]⟩
abbrev S_ : Shape := ⟨0, ![]⟩
abbrev S16x32 : Shape := ⟨2, ![16, 32]⟩
abbrev S16x32x1 : Shape := ⟨3, ![16, 32, 1]⟩
abbrev S16x3072 : Shape := ⟨2, ![16, 3072]⟩
abbrev S16x256x12 : Shape := ⟨3, ![16, 256, 12]⟩
abbrev S16x256 : Shape := ⟨2, ![16, 256]⟩
abbrev S16x256x1x1 : Shape := ⟨4, ![16, 256, 1, 1]⟩
abbrev S16x256x4096 : Shape := ⟨3, ![16, 256, 4096]⟩
abbrev S16x12x4096 : Shape := ⟨3, ![16, 12, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S16x6400, .f32⟩
  | .hbm, ⟨2, _⟩ => ⟨S16x32x32768, .f32⟩
  | .hbm, ⟨3, _⟩ => ⟨S_, .f32⟩
  | .hbm, ⟨4, _⟩ => ⟨S16x32, .f32⟩
  | .hbm, ⟨5, _⟩ => ⟨S16x32x1, .f32⟩
  | .hbm, ⟨6, _⟩ => ⟨S_, .f32⟩
  | .hbm, ⟨7, _⟩ => ⟨S16x32x1, .f32⟩
  | .hbm, ⟨8, _⟩ => ⟨S16x32x1, .f32⟩
  | .hbm, ⟨9, _⟩ => ⟨S_, .i32⟩
  | .hbm, ⟨10, _⟩ => ⟨S_, .f32⟩
  | .hbm, ⟨11, _⟩ => ⟨S16x32, .f32⟩
  | .hbm, ⟨12, _⟩ => ⟨S16x32x1, .f32⟩
  | .hbm, ⟨13, _⟩ => ⟨S_, .f32⟩
  | .hbm, ⟨14, _⟩ => ⟨S16x32x1, .f32⟩
  | .hbm, ⟨15, _⟩ => ⟨S16x32x1, .f32⟩
  | .hbm, ⟨16, _⟩ => ⟨S16x32x32768, .f32⟩
  | .hbm, ⟨17, _⟩ => ⟨S16x32x32768, .f32⟩
  | .hbm, ⟨18, _⟩ => ⟨S16x32x32768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x32, .f32⟩
  | .hbm, ⟨24, _⟩ => ⟨S16x32x1, .f32⟩
  | .hbm, ⟨25, _⟩ => ⟨S16x32x1, .f32⟩
  | .hbm, ⟨26, _⟩ => ⟨S16x32x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S16x32x1, .f32⟩
  | .hbm, ⟨32, _⟩ => ⟨S16x32x1, .f32⟩
  | .hbm, ⟨33, _⟩ => ⟨S16x32x32768, .f32⟩
  | .hbm, ⟨34, _⟩ => ⟨S16x32x32768, .f32⟩
  | .hbm, ⟨35, _⟩ => ⟨S_, .f32⟩
  | .hbm, ⟨36, _⟩ => ⟨S16x32x1, .f32⟩
  | .hbm, ⟨37, _⟩ => ⟨S16x32x1, .f32⟩
  | .hbm, ⟨38, _⟩ => ⟨S16x32x1, .f32⟩
  | .hbm, ⟨39, _⟩ => ⟨S16x32x32768, .f32⟩
  | .hbm, ⟨40, _⟩ => ⟨S16x32x32768, .f32⟩
  | .hbm, ⟨41, _⟩ => ⟨S16x256x64x64, .f32⟩
  | .hbm, ⟨42, _⟩ => ⟨S16x3072, .f32⟩
  | .hbm, ⟨43, _⟩ => ⟨S16x256x12, .f32⟩
  | .hbm, ⟨44, _⟩ => ⟨S16x3072, .f32⟩
  | .hbm, ⟨45, _⟩ => ⟨S16x256x12, .f32⟩
  | .hbm, ⟨46, _⟩ => ⟨S16x256, .f32⟩
  | .hbm, ⟨47, _⟩ => ⟨S16x256x1x1, .f32⟩
  | .hbm, ⟨48, _⟩ => ⟨S16x256x4096, .f32⟩
  | .hbm, ⟨49, _⟩ => ⟨S16x12x4096, .f32⟩
  | .hbm, ⟨50, _⟩ => ⟨S16x256x4096, .f32⟩
  | .hbm, ⟨51, _⟩ => ⟨S16x256x4096, .f32⟩
  | .hbm, ⟨52, _⟩ => ⟨S16x256x64x64, .f32⟩
  | .hbm, ⟨53, _⟩ => ⟨S16x256x64x64, .f32⟩
  | .hbm, ⟨54, _⟩ => ⟨S16x256x64x64, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]

class Facts₀ : Prop where
  shapeCasts_S16x256x64x64_S16x32x32768 : S16x256x64x64.ShapeCasts S16x32x32768
  reducesTo_S16x32x32768_S16x32_d2 : S16x32x32768.ReducesTo [2] S16x32
  h_S_ : 0 < S_.numel
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S16x32x1_S16x32x32768_0_1_2 : S16x32x1.BroadcastsInDim S16x32x32768 (![0, 1, 2] : Fin 3 → Fin S16x32x32768.rank)
  shapeCasts_S16x32x32768_S16x256x64x64 : S16x32x32768.ShapeCasts S16x256x64x64
  slices_S16x6400_S16x3072_0_0 : S16x6400.Slices ![0, 0] S16x3072
  shapeCasts_S16x3072_S16x256x12 : S16x3072.ShapeCasts S16x256x12
  slices_S16x6400_S16x3072_0_3072 : S16x6400.Slices ![0, 3072] S16x3072
  slices_S16x6400_S16x256_0_6144 : S16x6400.Slices ![0, 6144] S16x256
  shapeCasts_S16x256_S16x256x1x1 : S16x256.ShapeCasts S16x256x1x1
  shapeCasts_S16x256x64x64_S16x256x4096 : S16x256x64x64.ShapeCasts S16x256x4096
  shapeCasts_S16x256x4096_S16x256x64x64 : S16x256x4096.ShapeCasts S16x256x64x64
  bcast_S16x256x1x1_S16x256x64x64_0_1_2_3 : S16x256x1x1.BroadcastsInDim S16x256x64x64 (![0, 1, 2, 3] : Fin 4 → Fin S16x256x64x64.rank)
  dot_S16x256x12_S16x256x4096_S16x12x4096_1_1_2_2_0_0_wf : DotDims.WF S16x256x12 S16x256x4096 S16x12x4096 [1] [1] [2] [2] [0] [0]
  dot_S16x256x12_S16x12x4096_S16x256x4096_2_1_1_2_0_0_wf : DotDims.WF S16x256x12 S16x12x4096 S16x256x4096 [2] [1] [1] [2] [0] [0]

variable [Facts₀]

def dot_S16x256x12_S16x256x4096_S16x12x4096_1_1_2_2_0_0 : DotDims S16x256x12 S16x256x4096 S16x12x4096 where
  lhsContracting := [1]
  rhsContracting := [1]
  lhsNonContracting := [2]
  rhsNonContracting := [2]
  lhsBatch := [0]
  rhsBatch := [0]
  wf := dot_S16x256x12_S16x256x4096_S16x12x4096_1_1_2_2_0_0_wf
def dot_S16x256x12_S16x12x4096_S16x256x4096_2_1_1_2_0_0 : DotDims S16x256x12 S16x12x4096 S16x256x4096 where
  lhsContracting := [2]
  rhsContracting := [1]
  lhsNonContracting := [1]
  rhsNonContracting := [2]
  lhsBatch := [0]
  rhsBatch := [0]
  wf := dot_S16x256x12_S16x12x4096_S16x256x4096_2_1_1_2_0_0_wf

class Facts : Prop extends Facts₀ where

variable [Facts]
-- ==== Proof.Spec.lean ====
/-
  Group normalisation followed by a low-rank channel mix, as one function of the two argument arrays.

  An image batch x[b, c, h, w] (16 × 256 × 64 × 64) is read with its pixels flattened, n = 64·h + w.  Its 256 channels
  fall into 32 groups of 8 consecutive channels; for each image b and group g the mean and the variance are taken over
  the 8 · 4096 = 32768 entries of the group, the variance as the mean of the squares minus the square of the mean, and
  each entry is normalised, (x − mean) · (var + ε)^(−1/2).  The parameter row p[b, ·] (6400 numbers) holds two
  256 × 12 matrices u, v and a shift of 256 numbers: the normalised image is projected onto 12 directions,
  proj[r, n] = Σ_c v[c, r] · norm[c, n], mixed back, mix[c, n] = Σ_r u[c, r] · proj[r, n], and the result is
  norm + mix + shift[c].

  Everything is stated over the extended reals; the block-level functions take one image's channels X[c, n], the two
  matrices and the shift, and the array-level function `G` instantiates them at each image of the batch.
-/
import Idealize.ShloMosaic.PureOps.Ideal
import Idealize.ShloMosaic.Lib.ValueIdx

noncomputable section

namespace Cert.GroupMix

open Idealize.ShloMosaic Idealize.ShloMosaic.ValueIdx

/-- Channel 8·g + k: the k-th channel of group g. -/
def chan (g : Fin 32) (k : Fin 8) : Fin 256 := ⟨8 * g.val + k.val, by have := g.isLt; have := k.isLt; omega⟩

/-- The group a channel belongs to. -/
def grp (c : Fin 256) : Fin 32 := ⟨c.val / 8, by have := c.isLt; omega⟩

/-- A channel's place within its group. -/
def sub (c : Fin 256) : Fin 8 := ⟨c.val % 8, Nat.mod_lt _ (by norm_num)⟩

theorem chan_grp_sub (c : Fin 256) : chan (grp c) (sub c) = c :=
  Fin.ext (by show 8 * (c.val / 8) + c.val % 8 = c.val; omega)

/-- The reciprocal of the group size, 2^(-15), as the programs spell it. -/
def invN : EReal := Ideal.ofBits .f32 0x38000000#32

/-- The stabiliser added to the variance. -/
def eps : EReal := Ideal.ofBits .f32 0x358637BD#32

section Block

variable (X : Fin 256 → Fin 4096 → EReal) (U V : Fin 256 → Fin 12 → EReal) (S : Fin 256 → EReal)

/-- The mean of group g. -/
def bmean (g : Fin 32) : EReal := (∑ k : Fin 8, ∑ n : Fin 4096, X (chan g k) n) * invN

/-- The variance of group g: the mean of the squares minus the square of the mean. -/
def bvar (g : Fin 32) : EReal :=
  (∑ k : Fin 8, ∑ n : Fin 4096, X (chan g k) n * X (chan g k) n) * invN - bmean X g * bmean X g

/-- The normalised entry. -/
def bnorm (c : Fin 256) (n : Fin 4096) : EReal :=
  (X c n - bmean X (grp c)) * Ideal.rsqrt (bvar X (grp c) + eps)

/-- The projection onto direction r. -/
def bproj (r : Fin 12) (n : Fin 4096) : EReal := ∑ c : Fin 256, V c r * bnorm X c n

/-- The projection mixed back into channel c. -/
def bmix (c : Fin 256) (n : Fin 4096) : EReal := ∑ r : Fin 12, U c r * bproj X V r n

/-- One image's result. -/
def bout (c : Fin 256) (n : Fin 4096) : EReal := bnorm X c n + bmix X U V c n + S c

end Block

/-- The index sets of the two argument arrays. -/
abbrev XIdx := (⟨4, ![16, 256, 64, 64]⟩ : Shape).Idx
abbrev PIdx := (⟨2, ![16, 6400]⟩ : Shape).Idx

/-- Image b, channel c, flattened pixel n. -/
def xf (x : XIdx → EReal) (b : Fin 16) (c : Fin 256) (n : Fin 4096) : EReal :=
  x (ix4 b c ⟨n.val / 64, by have := n.isLt; omega⟩ ⟨n.val % 64, Nat.mod_lt _ (by norm_num)⟩)

/-- The first 256 × 12 matrix of row b. -/
def uE (p : PIdx → EReal) (b : Fin 16) (c : Fin 256) (r : Fin 12) : EReal :=
  p (ix2 b ⟨12 * c.val + r.val, by have := c.isLt; have := r.isLt; omega⟩)

/-- The second. -/
def vE (p : PIdx → EReal) (b : Fin 16) (c : Fin 256) (r : Fin 12) : EReal :=
  p (ix2 b ⟨3072 + (12 * c.val + r.val), by have := c.isLt; have := r.isLt; omega⟩)

/-- The shift. -/
def sE (p : PIdx → EReal) (b : Fin 16) (c : Fin 256) : EReal :=
  p (ix2 b ⟨6144 + c.val, by have := c.isLt; omega⟩)

/-- The flattened pixel 64·h + w. -/
def pix (h w : Fin 64) : Fin 4096 := ⟨64 * h.val + w.val, by have := h.isLt; have := w.isLt; omega⟩

/-- The whole result, entry by entry. -/
def G (x : XIdx → EReal) (p : PIdx → EReal) : XIdx → EReal := fun i =>
  bout (xf x (i 0)) (uE p (i 0)) (vE p (i 0)) (sE p (i 0)) (i 1) (pix (i 2) (i 3))

/-- The index set of the result with its pixels flattened. -/
abbrev FIdx := (⟨3, ![16, 256, 4096]⟩ : Shape).Idx

/-- The result with its pixels flattened, entry by entry. -/
def Gflat (x : XIdx → EReal) (p : PIdx → EReal) : FIdx → EReal := fun i =>
  bout (xf x (i 0)) (uE p (i 0)) (vE p (i 0)) (sE p (i 0)) (i 1) (i 2)

theorem Gflat_apply (x : XIdx → EReal) (p : PIdx → EReal) (b : Fin 16) (c : Fin 256) (n : Fin 4096) :
    Gflat x p (ix3 b c n) = bout (xf x b) (uE p b) (vE p b) (sE p b) c n := rfl

theorem G_apply (x : XIdx → EReal) (p : PIdx → EReal) (b : Fin 16) (c : Fin 256) (h w : Fin 64) :
    G x p (ix4 b c h w) = bout (xf x b) (uE p b) (vE p b) (sE p b) c (pix h w) := rfl

end Cert.GroupMix

end
-- ==== Proof.LibGroupOps.lean ====
/-
  Three-dimensional vector operations read at one index, on the extended reals.

  A body that normalises groups of rows views an [a·b, c] block as [a, b, c] — a groups of b rows of c entries —, sums each
  row, then each group, and spreads a per-group number back over the group.  Each lemma below reads one such operation at
  an index whose coordinates are explicit: splitting the first axis in two and merging it back only re-number rows (row
  b·i + j is row j of group i); a sum along the last axis at (i, j) is the sum of that row; a sum along the middle axis
  at (i, u) is the sum over the rows of group i; a trailing unit axis added by a cast changes nothing; an [a, 1, 1] column
  spread over [a, b, c] reads, everywhere in group i, the column's entry i.
-/
import Idealize.ShloMosaic.PureOps.Ideal.Laws
import Idealize.ShloMosaic.Lib.ValueIdx
import Idealize.ShloMosaic.Lib.Pipeline.Value

noncomputable section

namespace Cert.GroupOps

open Idealize.ShloMosaic Idealize.ShloMosaic.ValueIdx

/-! ## Re-numbering rows -/

section Layout

variable {α : Type} {m a b c : Nat}

/-- An [m, c] array viewed as [a, b, c] reads, at (i, j, k), row b·i + j at k. -/
theorem split_apply (x : (⟨2, ![m, c]⟩ : Shape).Idx → α) (h : (⟨2, ![m, c]⟩ : Shape).ShapeCasts ⟨3, ![a, b, c]⟩)
    (i : Fin a) (j : Fin b) (k : Fin c) (r : Fin m) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- An [a, b, c] array viewed as [m, c] reads, at (r, k) with r = b·i + j, the entry (i, j, k). -/
theorem merge_apply (x : (⟨3, ![a, b, c]⟩ : Shape).Idx → α) (h : (⟨3, ![a, b, c]⟩ : Shape).ShapeCasts ⟨2, ![m, c]⟩)
    (i : Fin a) (j : Fin b) (k : Fin c) (r : Fin m) (hr : r.val = i.val * b + j.val) :
    shapeCast ⟨2, ![m, c]⟩ x h (ix2 r k) = x (ix3 i j k) :=
  shapeCast_apply x h _ _ (by
    rw [Shape.rowMajor_val_two, Shape.rowMajor_val_three]
    show (i.val * b + j.val) * c + k.val = r.val * c + k.val
    rw [hr])

/-- An [a, b] array with a trailing unit axis added reads, at (i, j, u), the entry (i, j). -/
theorem addLast_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An [a, 1, 1] column spread over [a, b, c] reads, at (i, j, k), the column's entry i. -/
theorem spread_apply (x : (⟨3, ![a, 1, 1]⟩ : Shape).Idx → α) (h : (⟨3, ![a, 1, 1]⟩ : Shape).Broadcasts ⟨3, ![a, b, c]⟩)
    (i : Fin a) (j : Fin b) (k : Fin c) :
    broadcastTo ⟨3, ![a, b, c]⟩ x h (ix3 i j k) = x (ix3 i (0 : Fin 1) (0 : Fin 1)) :=
  broadcastTo_apply x h _ _ (fun ax => by
    match ax with
    | ⟨0, _⟩ =>
      show i.val = if a = 1 then 0 else i.val
      split
      · next h1 => have := i.isLt; omega
      · rfl
    | ⟨1, _⟩ => show 0 = if (1 : Nat) = 1 then 0 else j.val; rw [if_pos rfl]
    | ⟨2, _⟩ => show 0 = if (1 : Nat) = 1 then 0 else k.val; rw [if_pos rfl])

end Layout

/-! ## Sums along the last and the middle axis -/

section Sums

variable {a b c : Nat} {φ : FTy}

/-- The index over (i, j) with last coordinate k. -/
theorem lift_last (h : (⟨3, ![a, b, c]⟩ : Shape).Reduces [2] ⟨2, ![a, b]⟩) (i : Fin a) (j : Fin b) (k : Fin c) :
    h.lift (ix2 i j) k = ix3 i j k :=
  funext fun x => Fin.ext (by
    show h.liftVal (ix2 i j) k.val x = (ix3 i j k x).val
    unfold Shape.Reduces.liftVal
    match x with
    | ⟨0, _⟩ => rfl
    | ⟨1, _⟩ => rfl
    | ⟨2, _⟩ => rfl)

/-- A sum along the last axis, at (i, j): the sum of that row. -/
theorem lastSum_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- The index over (i, u) with middle coordinate k. -/
theorem lift_mid (h : (⟨3, ![a, b, c]⟩ : Shape).Reduces [1] ⟨2, ![a, c]⟩) (i : Fin a) (u : Fin c) (k : Fin b) :
    h.lift (ix2 i u) k = ix3 i k u :=
  funext fun x => Fin.ext (by
    show h.liftVal (ix2 i u) k.val x = (ix3 i k u x).val
    unfold Shape.Reduces.liftVal
    match x with
    | ⟨0, _⟩ => rfl
    | ⟨1, _⟩ => rfl
    | ⟨2, _⟩ => rfl)

/-- A sum along the middle axis, at (i, u): the sum over the middle coordinate. -/
theorem midSum_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (u : Fin c) :
    multiReduction .add [1] ⟨2, ![a, c]⟩ src acc h hφ hacc (ix2 i u) = ∑ k : Fin b, src (ix3 i k u) := by
  rw [Ideal.multiReduction_add_single]
  exact Finset.sum_congr rfl fun k _ => congrArg src (lift_mid h i u k)

end Sums

end Cert.GroupOps

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.KerPay.lean ====
/-
  What one grid point of the kernel writes, entry by entry.

  At a point the body holds one image's channels as a [1, 256, 4096] block, the two 256 × 12 matrices and the shift
  column.  Reading its stored value at (c, n): the block is viewed as 32 groups of 8 rows, each group's entries and
  their squares are summed (rows first, then the group), scaled by 2^(-15) to the mean and the mean of the squares, the
  entry is centred and scaled by (variance + ε)^(-1/2); the two matrix products into zero are plain sums over the
  contracted axis (the roundings to a narrower format are the identity on the extended reals); and the shift column is
  repeated along the row.  The result is the block-level function `bout` of the four blocks read by coordinates.
-/
import proofs.«164726_j807453851999_2_alg».proof.Proof.Gen.KernelIdeal.Frame
import proofs.«164726_j807453851999_2_alg».proof.Proof.Spec
import proofs.«164726_j807453851999_2_alg».proof.Proof.LibGroupOps
import proofs.«164726_j807453851999_2_alg».proof.Proof.LibDotRead
import proofs.«164726_j807453851999_2_alg».proof.Proof.LibRowOps
import Idealize.ShloMosaic.Lib.ValueLayout

noncomputable section

namespace Cert.KernelIdeal.Pay

open Cert.KernelIdeal Cert.KernelIdeal.Gen Idealize.ShloMosaic Idealize.ShloMosaic.ValueIdx Cert.GroupMix

/-- One image's channels, by coordinates. -/
def rows (x0 : Vec Ideal S1x256x4096 .f32) : Fin 256 → Fin 4096 → EReal := fun c n => x0 (ix3 (0 : Fin 1) c n)
/-- A 256 × 12 matrix, by coordinates. -/
def mat (x1 : Vec Ideal S1x256x12 .f32) : Fin 256 → Fin 12 → EReal := fun c r => x1 (ix3 (0 : Fin 1) c r)
/-- The shift column, by coordinates. -/
def col (x3 : Vec Ideal S1x256x1 .f32) : Fin 256 → EReal := fun c => x3 (ix3 (0 : Fin 1) c (0 : Fin 1))

/-! ## The block as groups of rows, and a group's total -/

/-- The block viewed as 32 groups of 8 rows. -/
def groups (x0 : Vec Ideal S1x256x4096 .f32) : FVec Ideal S32x8x4096 .f32 :=
  shapeCast S32x8x4096 (shapeCast S256x4096 x0 shapeCasts_S1x256x4096_S256x4096) shapeCasts_S256x4096_S32x8x4096

theorem groups_apply (x0 : Vec Ideal S1x256x4096 .f32) (g : Fin 32) (k : Fin 8) (n : Fin 4096) :
    groups x0 (ix3 g k n) = rows x0 (chan g k) n :=
  (GroupOps.split_apply _ _ g k n (chan g k) (by show 8 * g.val + k.val = g.val * 8 + k.val; omega)).trans
    (shapeCast_1ab_ab_apply x0 _ (chan g k) n)

/-- Rows summed, then the rows of each group. -/
def total (y : FVec Ideal S32x8x4096 .f32) : FVec Ideal S32x1x1 .f32 :=
  shapeCast S32x1x1
    (multiReduction .add [1] S32x1
      (shapeCast S32x8x1 (multiReduction .add [2] S32x8 y 0x00000000#32 reduces_S32x8x4096_S32x8 (.inl rfl) rfl)
        shapeCasts_S32x8_S32x8x1)
      0x00000000#32 reduces_S32x8x1_S32x1 (.inl rfl) rfl)
    shapeCasts_S32x1_S32x1x1

theorem total_apply (y : FVec Ideal S32x8x4096 .f32) (g : Fin 32) :
    total y (ix3 g (0 : Fin 1) (0 : Fin 1)) = ∑ k : Fin 8, ∑ n : Fin 4096, y (ix3 g k n) := by
  unfold total
  refine (GroupOps.addLast_apply _ _ g (0 : Fin 1) (0 : Fin 1)).trans ?_
  refine (GroupOps.midSum_apply _ _ _ _ _ g (0 : Fin 1)).trans ?_
  refine Finset.sum_congr rfl fun k _ => ?_
  refine (GroupOps.addLast_apply _ _ g k (0 : Fin 1)).trans ?_
  exact GroupOps.lastSum_apply _ _ _ _ _ g k

/-! ## Mean, scale, and the normalised block -/

/-- Each group's mean. -/
def mean3 (x0 : Vec Ideal S1x256x4096 .f32) : FVec Ideal S32x1x1 .f32 :=
  mulf (total (groups x0)) (broadcast S32x1x1 (Scalar.ofBits .f32 0x38000000#32))

/-- Each group's (variance + ε)^(-1/2). -/
def scale3 (x0 : Vec Ideal S1x256x4096 .f32) : FVec Ideal S32x1x1 .f32 :=
  rsqrt (addf (subf (mulf (total (mulf (groups x0) (groups x0))) (broadcast S32x1x1 (Scalar.ofBits .f32 0x38000000#32)))
      (mulf (mean3 x0) (mean3 x0)))
    (broadcast S32x1x1 (Scalar.ofBits .f32 0x358637BD#32)))

theorem mean3_apply (x0 : Vec Ideal S1x256x4096 .f32) (g : Fin 32) :
    mean3 x0 (ix3 g (0 : Fin 1) (0 : Fin 1)) = bmean (rows x0) g := by
  show total (groups x0) (ix3 g (0 : Fin 1) (0 : Fin 1)) * invN = _
  rw [total_apply]
  unfold bmean
  refine congrArg (· * invN) (Finset.sum_congr rfl fun k _ => Finset.sum_congr rfl fun n _ => ?_)
  exact groups_apply x0 g k n

theorem scale3_apply (x0 : Vec Ideal S1x256x4096 .f32) (g : Fin 32) :
    scale3 x0 (ix3 g (0 : Fin 1) (0 : Fin 1)) = Ideal.rsqrt (bvar (rows x0) g + eps) := by
  show Ideal.rsqrt ((total (mulf (groups x0) (groups x0)) (ix3 g (0 : Fin 1) (0 : Fin 1)) * invN
      - mean3 x0 (ix3 g (0 : Fin 1) (0 : Fin 1)) * mean3 x0 (ix3 g (0 : Fin 1) (0 : Fin 1))) + eps) = _
  rw [total_apply, mean3_apply]
  unfold bvar
  refine congrArg (fun s => Ideal.rsqrt (s * invN - bmean (rows x0) g * bmean (rows x0) g + eps))
    (Finset.sum_congr rfl fun k _ => Finset.sum_congr rfl fun n _ => ?_)
  show groups x0 (ix3 g k n) * groups x0 (ix3 g k n) = _
  rw [groups_apply]

/-- The normalised block is the printed payload: the printed operations in their order. -/
theorem pay2_eq (x0 : Vec Ideal S1x256x4096 .f32) :
    k0_pay2 (F := Ideal) x0
      = shapeCast S256x4096
          (mulf (subf (groups x0) (broadcastTo S32x8x4096 (mean3 x0) broadcasts_S32x1x1_S32x8x4096))
            (broadcastTo S32x8x4096 (scale3 x0) broadcasts_S32x1x1_S32x8x4096))
          shapeCasts_S32x8x4096_S256x4096 := rfl

theorem pay2_apply (x0 : Vec Ideal S1x256x4096 .f32) (c : Fin 256) (n : Fin 4096) :
    k0_pay2 (F := Ideal) x0 (ix2 c n) = bnorm (rows x0) c n := by
  rw [pay2_eq]
  refine (GroupOps.merge_apply _ _ (grp c) (sub c) n c (by
    show c.val = c.val / 8 * 8 + c.val % 8; omega)).trans ?_
  show (groups x0 (ix3 (grp c) (sub c) n)
        - broadcastTo S32x8x4096 (mean3 x0) broadcasts_S32x1x1_S32x8x4096 (ix3 (grp c) (sub c) n))
      * broadcastTo S32x8x4096 (scale3 x0) broadcasts_S32x1x1_S32x8x4096 (ix3 (grp c) (sub c) n) = _
  rw [GroupOps.spread_apply, GroupOps.spread_apply, groups_apply, mean3_apply, scale3_apply, chan_grp_sub]
  rfl

/-! ## The two products -/

theorem hz3 : (![0, 0, 0] : Fin 3 → Nat) = fun _ => 0 := funext fun a => by fin_cases a <;> rfl

/-- The first product contracts the 256 rows of both operands. -/
theorem proj_apply (lhs : FVec Ideal S256x12 .bf16) (rhs : FVec Ideal S256x4096 .bf16) (r : Fin 12) (n : Fin 4096) :
    FloatOps.matmul dot_S256x12_S256x4096_S12x4096_0_0_1_1_n_n none lhs rhs (constant S12x4096 .f32 0x00000000#32) (ix2 r n)
      = ∑ c : Fin 256, lhs (ix2 c r) * rhs (ix2 c n) := by
  have hc : (dot_S256x12_S256x4096_S12x4096_0_0_1_1_n_n).lhsContracting = [(0 : Fin 2)] := rfl
  have hc' : (dot_S256x12_S256x4096_S12x4096_0_0_1_1_n_n).rhsContracting = [(0 : Fin 2)] := rfl
  refine DotRead.matmul_zero_read _ 256 (DotRead.contr_rank_one _ hc) (DotRead.contr_size_one _ hc) none lhs rhs _
    (fun k => ix2 k r) (fun k => ix2 k n) (fun k => ?_) (fun k => ?_)
  · funext a; apply Fin.ext
    match a with
    | ⟨0, _⟩ => exact DotRead.lhs_contr_val _ 256 _ _ hc _ k
    | ⟨1, _⟩ => exact DotRead.lhs_free_val dot_S256x12_S256x4096_S12x4096_0_0_1_1_n_n (ix2 r n) _ (1 : Fin 2) (by decide) (by decide) (0 : Fin 2) (by decide)
  · funext a; apply Fin.ext
    match a with
    | ⟨0, _⟩ => exact DotRead.rhs_contr_val _ 256 _ _ hc' _ k
    | ⟨1, _⟩ => exact DotRead.rhs_free_val dot_S256x12_S256x4096_S12x4096_0_0_1_1_n_n (ix2 r n) _ (1 : Fin 2) (by decide) (by decide) (1 : Fin 2) (by decide)

theorem plain2 : RowOps.IsPlain dot_S256x12_S12x4096_S256x4096_1_0_0_1_n_n := ⟨rfl, rfl, rfl, rfl, rfl, rfl⟩

/-- The mixed block is the printed payload. -/
theorem pay4_eq (x0 : Vec Ideal S1x256x4096 .f32) (x1 x2 : Vec Ideal S1x256x12 .f32) :
    k0_pay4 (F := Ideal) x0 x1 x2
      = matmul dot_S256x12_S12x4096_S256x4096_1_0_0_1_n_n none
          (truncf .bf16 (shapeCast S256x12 x1 shapeCasts_S1x256x12_S256x12) bitsLt_bf16_f32)
          (truncf .bf16
            (matmul dot_S256x12_S256x4096_S12x4096_0_0_1_1_n_n none
              (truncf .bf16 (shapeCast S256x12 x2 shapeCasts_S1x256x12_S256x12) bitsLt_bf16_f32)
              (truncf .bf16 (k0_pay2 x0) bitsLt_bf16_f32) (constant S12x4096 .f32 0x00000000#32))
            bitsLt_bf16_f32)
          (constant S256x4096 .f32 0x00000000#32) := rfl

theorem pay4_apply (x0 : Vec Ideal S1x256x4096 .f32) (x1 x2 : Vec Ideal S1x256x12 .f32) (c : Fin 256) (n : Fin 4096) :
    k0_pay4 (F := Ideal) x0 x1 x2 (ix2 c n) = bmix (rows x0) (mat x1) (mat x2) c n := by
  rw [pay4_eq]
  refine (RowOps.matmul_zero_apply plain2 none _ _ c n).trans ?_
  unfold bmix
  refine Finset.sum_congr rfl fun r _ => ?_
  refine congrArg₂ (· * ·) (shapeCast_1ab_ab_apply x1 _ c r) ?_
  refine (proj_apply _ _ r n).trans ?_
  unfold bproj
  refine Finset.sum_congr rfl fun c' _ => ?_
  exact congrArg₂ (· * ·) (shapeCast_1ab_ab_apply x2 _ c' r) (pay2_apply x0 c' n)

/-! ## The stored block -/

theorem pay1_eq (v25 : FVec Ideal S256x4096 .f32) (v31 : FVec Ideal S256x1 .f32) (v37 : FVec Ideal S256x4096 .f32) :
    k0_pay1 (F := Ideal) v25 v31 v37
      = shapeCast S1x256x4096 (addf (addf v25 v37) (broadcastTo S256x4096 v31 broadcasts_S256x1_S256x4096))
          shapeCasts_S256x4096_S1x256x4096 := rfl

/-- What the body leaves in the output's buffer is the stored value: one store through the whole buffer, of the payload
    of the four blocks loaded whole. -/
theorem out_eq (x0 : Vec Ideal S1x256x4096 .f32) (x1 x2 : Vec Ideal S1x256x12 .f32) (x3 : Vec Ideal S1x256x1 .f32) :
    out0_4 (F := Ideal) x0 x1 x2 x3 = k0_pay1 (k0_pay2 x0) (k0_pay3 x3) (k0_pay4 x0 x1 x2) := by
  unfold out0_4
  rw [View.canon_unit_zero hz3]
  simp only [View.ld_unit_zero (S := S1x256x4096) hz3, View.ld_unit_zero (S := S1x256x12) hz3,
    View.ld_unit_zero (S := S1x256x1) hz3]

theorem out_apply (x0 : Vec Ideal S1x256x4096 .f32) (x1 x2 : Vec Ideal S1x256x12 .f32) (x3 : Vec Ideal S1x256x1 .f32)
    (u : Fin 1) (c : Fin 256) (n : Fin 4096) :
    out0_4 (F := Ideal) x0 x1 x2 x3 (ix3 u c n) = bout (rows x0) (mat x1) (mat x2) (col x3) c n := by
  rw [out_eq, pay1_eq]
  refine (shapeCast_ab_1ab_apply _ _ u c n).trans ?_
  show (k0_pay2 (F := Ideal) x0 (ix2 c n) + k0_pay4 (F := Ideal) x0 x1 x2 (ix2 c n))
      + broadcastTo S256x4096 (k0_pay3 (F := Ideal) x3) broadcasts_S256x1_S256x4096 (ix2 c n) = _
  rw [RowOps.spread_apply, pay2_apply, pay4_apply]
  unfold bout
  exact congrArg (bnorm (rows x0) c n + bmix (rows x0) (mat x1) (mat x2) c n + ·) (shapeCast_1ab_ab_apply x3 _ c (0 : Fin 1))

end Cert.KernelIdeal.Pay

end
-- ==== Proof.KerArr.lean ====
/-
  From what each grid point writes to the whole result.

  The region's arrays are the first argument with each 64 × 64 plane flattened and, cut out of the second argument's rows,
  the two 256 × 12 matrices and the shift column; grid point t stages image t of each.  So point t writes image t of the
  flattened result, the sixteen images tile the output array, and the array ends at the flattened result everywhere.
  The last operation restores the 64 × 64 planes: entry (b, c, h, w) of the result is entry (b, c, 64·h + w) of the
  flattened one.
-/
import proofs.«164726_j807453851999_2_alg».proof.Proof.Gen.KernelIdeal.Frame
import proofs.«164726_j807453851999_2_alg».proof.Proof.KerPay
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx Cert.GroupMix Idealize.ShloMosaic.StableHlo

variable (m : (ℓ : Loc nD τ sig) → Buf (Elt Ideal) ℓ) (ρ : Dev nD → PrngReg)

/-- The two argument arrays as launched. -/
abbrev xA (c : Dev nD) : XIdx → EReal := m ((c : Thread nD τ).loc main_arg0)
abbrev pA (c : Dev nD) : PIdx → EReal := m ((c : Thread nD τ).loc main_arg1)

/-! ## The region's arrays, by coordinates -/

theorem V_v0 (c : Dev nD) :
    (V m c main_v0 : S16x256x4096.Idx → EReal) = shapeCast S16x256x4096 (xA m c) shapeCasts_S16x256x64x64_S16x256x4096 := by
  show StableHlo.after hostOps0 (fun b => m (c, b)) (Proc.devRef .tc main_v0) = _
  after_results
  rfl

theorem V_v2 (c : Dev nD) :
    (V m c main_v2 : S16x256x12.Idx → EReal)
      = shapeCast S16x256x12 (extractStridedSlice S16x3072 ![0, 0] (pA m c) slices_S16x6400_S16x3072_0_0) shapeCasts_S16x3072_S16x256x12 := by
  show StableHlo.after hostOps0 (fun b => m (c, b)) (Proc.devRef .tc main_v2) = _
  after_results
  rfl

theorem V_v4 (c : Dev nD) :
    (V m c main_v4 : S16x256x12.Idx → EReal)
      = shapeCast S16x256x12 (extractStridedSlice S16x3072 ![0, 3072] (pA m c) slices_S16x6400_S16x3072_0_3072) shapeCasts_S16x3072_S16x256x12 := by
  show StableHlo.after hostOps0 (fun b => m (c, b)) (Proc.devRef .tc main_v4) = _
  after_results
  rfl

theorem V_v6 (c : Dev nD) :
    (V m c main_v6 : S16x256x1.Idx → EReal)
      = shapeCast S16x256x1 (extractStridedSlice S16x256 ![0, 6144] (pA m c) slices_S16x6400_S16x256_0_6144) shapeCasts_S16x256_S16x256x1 := by
  show StableHlo.after hostOps0 (fun b => m (c, b)) (Proc.devRef .tc main_v6) = _
  after_results
  rfl

theorem V_v0_apply (c : Dev nD) (b : Fin 16) (c' : Fin 256) (n : Fin 4096) :
    (V m c main_v0 : S16x256x4096.Idx → EReal) (ix3 b c' n) = xf (xA m c) b c' n := by
  rw [V_v0]
  refine shapeCast_apply (xA m c) _ _ _ ?_
  rw [Shape.rowMajor_val_four, Shape.rowMajor_val_three]
  show ((b.val * 256 + c'.val) * 64 + n.val / 64) * 64 + n.val % 64 = (b.val * 256 + c'.val) * 4096 + n.val
  omega

theorem V_v2_apply (c : Dev nD) (b : Fin 16) (c' : Fin 256) (r : Fin 12) :
    (V m c main_v2 : S16x256x12.Idx → EReal) (ix3 b c' r) = uE (pA m c) b c' r := by
  rw [V_v2]
  refine (shapeCast_apply _ _ _ (ix2 b (⟨12 * c'.val + r.val, by have := c'.isLt; have := r.isLt; omega⟩ : Fin 3072)) ?_).trans ?_
  · rw [Shape.rowMajor_val_two, Shape.rowMajor_val_three]
    show b.val * 3072 + (12 * c'.val + r.val) = (b.val * 256 + c'.val) * 12 + r.val
    omega
  · refine extractStridedSlice_apply _ _ _ _ _ fun a => ?_
    match a with
    | ⟨0, _⟩ => show b.val = 0 + b.val; omega
    | ⟨1, _⟩ => show 12 * c'.val + r.val = 0 + (12 * c'.val + r.val); omega

theorem V_v4_apply (c : Dev nD) (b : Fin 16) (c' : Fin 256) (r : Fin 12) :
    (V m c main_v4 : S16x256x12.Idx → EReal) (ix3 b c' r) = vE (pA m c) b c' r := by
  rw [V_v4]
  refine (shapeCast_apply _ _ _ (ix2 b (⟨12 * c'.val + r.val, by have := c'.isLt; have := r.isLt; omega⟩ : Fin 3072)) ?_).trans ?_
  · rw [Shape.rowMajor_val_two, Shape.rowMajor_val_three]
    show b.val * 3072 + (12 * c'.val + r.val) = (b.val * 256 + c'.val) * 12 + r.val
    omega
  · refine extractStridedSlice_apply _ _ _ _ _ fun a => ?_
    match a with
    | ⟨0, _⟩ => show b.val = 0 + b.val; omega
    | ⟨1, _⟩ => show 3072 + (12 * c'.val + r.val) = 3072 + (12 * c'.val + r.val); rfl

theorem V_v6_apply (c : Dev nD) (b : Fin 16) (c' : Fin 256) (u : Fin 1) :
    (V m c main_v6 : S16x256x1.Idx → EReal) (ix3 b c' u) = sE (pA m c) b c' := by
  rw [V_v6]
  refine (shapeCast_apply _ _ _ (ix2 b c') ?_).trans ?_
  · have hu : u.val = 0 := by omega
    rw [Shape.rowMajor_val_two, Shape.rowMajor_val_three]
    show b.val * 256 + c'.val = (b.val * 256 + c'.val) * 1 + u.val
    omega
  · refine extractStridedSlice_apply _ _ _ _ _ fun a => ?_
    match a with
    | ⟨0, _⟩ => show b.val = 0 + b.val; omega
    | ⟨1, _⟩ => show 6144 + c'.val = 6144 + c'.val; rfl

/-! ## Each window's block at a point is an image's slab -/

/-- The printed index maps over the grid: every window's block index is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem blk0_apply (c : Dev nD) (t : Fin cfg0.N) (b : Fin 16) (hb : b.val = t.val) (c' : Fin 256) (n : Fin 4096) :
    (iblk m c 0 t : Vec Ideal S1x256x4096 .f32) (ix3 (0 : Fin 1) c' n) = xf (xA m c) b c' n := by
  obtain ⟨⟨e0, e1, e2⟩, -⟩ := idx_facts t
  rw [← V_v0_apply m c b c' n]
  unfold iblk
  rw [View.read_apply]
  show V m c main_v0 _ = V m c main_v0 _
  refine congrArg (V m c main_v0) ?_
  funext a
  apply Fin.ext
  match a with
  | ⟨0, _⟩ => show win0_0.index t (0 : Fin 3) * 1 + 1 * 0 = b.val; rw [e0, hb]; omega
  | ⟨1, _⟩ => show win0_0.index t (1 : Fin 3) * 256 + 1 * c'.val = c'.val; rw [e1]; omega
  | ⟨2, _⟩ => show win0_0.index t (2 : Fin 3) * 4096 + 1 * n.val = n.val; rw [e2]; omega

theorem blk1_apply (c : Dev nD) (t : Fin cfg0.N) (b : Fin 16) (hb : b.val = t.val) (c' : Fin 256) (r : Fin 12) :
    (iblk m c 1 t : Vec Ideal S1x256x12 .f32) (ix3 (0 : Fin 1) c' r) = uE (pA m c) b c' r := by
  obtain ⟨-, ⟨e0, e1, e2⟩, -⟩ := idx_facts t
  rw [← V_v2_apply m c b c' r]
  unfold iblk
  rw [View.read_apply]
  show V m c main_v2 _ = V m c main_v2 _
  refine congrArg (V m c main_v2) ?_
  funext a
  apply Fin.ext
  match a with
  | ⟨0, _⟩ => show win0_1.index t (0 : Fin 3) * 1 + 1 * 0 = b.val; rw [e0, hb]; omega
  | ⟨1, _⟩ => show win0_1.index t (1 : Fin 3) * 256 + 1 * c'.val = c'.val; rw [e1]; omega
  | ⟨2, _⟩ => show win0_1.index t (2 : Fin 3) * 12 + 1 * r.val = r.val; rw [e2]; omega

theorem blk2_apply (c : Dev nD) (t : Fin cfg0.N) (b : Fin 16) (hb : b.val = t.val) (c' : Fin 256) (r : Fin 12) :
    (iblk m c 2 t : Vec Ideal S1x256x12 .f32) (ix3 (0 : Fin 1) c' r) = vE (pA m c) b c' r := by
  obtain ⟨-, -, ⟨e0, e1, e2⟩, -⟩ := idx_facts t
  rw [← V_v4_apply m c b c' r]
  unfold iblk
  rw [View.read_apply]
  show V m c main_v4 _ = V m c main_v4 _
  refine congrArg (V m c main_v4) ?_
  funext a
  apply Fin.ext
  match a with
  | ⟨0, _⟩ => show win0_2.index t (0 : Fin 3) * 1 + 1 * 0 = b.val; rw [e0, hb]; omega
  | ⟨1, _⟩ => show win0_2.index t (1 : Fin 3) * 256 + 1 * c'.val = c'.val; rw [e1]; omega
  | ⟨2, _⟩ => show win0_2.index t (2 : Fin 3) * 12 + 1 * r.val = r.val; rw [e2]; omega

theorem blk3_apply (c : Dev nD) (t : Fin cfg0.N) (b : Fin 16) (hb : b.val = t.val) (c' : Fin 256) :
    (iblk m c 3 t : Vec Ideal S1x256x1 .f32) (ix3 (0 : Fin 1) c' (0 : Fin 1)) = sE (pA m c) b c' := by
  obtain ⟨-, -, -, ⟨e0, e1, e2⟩, -⟩ := idx_facts t
  rw [← V_v6_apply m c b c' (0 : Fin 1)]
  unfold iblk
  rw [View.read_apply]
  show V m c main_v6 _ = V m c main_v6 _
  refine congrArg (V m c main_v6) ?_
  funext a
  apply Fin.ext
  match a with
  | ⟨0, _⟩ => show win0_3.index t (0 : Fin 3) * 1 + 1 * 0 = b.val; rw [e0, hb]; omega
  | ⟨1, _⟩ => show win0_3.index t (1 : Fin 3) * 256 + 1 * c'.val = c'.val; rw [e1]; omega
  | ⟨2, _⟩ => show win0_3.index t (2 : Fin 3) * 1 + 1 * 0 = 0; rw [e2]

/-! ## What a point writes is its image of the flattened result -/

/-- Over blocks that are image b's slabs, the stored value at an entry is the flattened result at image b's entry. -/
theorem point_eq (x : XIdx → EReal) (p : PIdx → EReal) (b : Fin 16)
    (x0 : Vec Ideal S1x256x4096 .f32) (x1 x2 : Vec Ideal S1x256x12 .f32) (x3 : Vec Ideal S1x256x1 .f32)
    (h0 : Pay.rows x0 = xf x b) (h1 : Pay.mat x1 = uE p b) (h2 : Pay.mat x2 = vE p b) (h3 : Pay.col x3 = sE p b)
    (y0 : Fin 1) (y1 : Fin 256) (y2 : Fin 4096) :
    out0_4 (F := Ideal) x0 x1 x2 x3 (ix3 y0 y1 y2) = Gflat x p (ix3 b y1 y2) := by
  rw [Pay.out_apply, h0, h1, h2, h3, Gflat_apply]

theorem flushed_eq (c : Dev nD) (t : Fin cfg0.N) :
    (dats m 0 c).flushed 4 t = ((cfg0.win 4).blk t).view.read (Elt Ideal) (Gflat (xA m c) (pA m c)) := by
  have hN : t.val < 16 := lt_of_lt_of_eq t.isLt N_0
  obtain ⟨-, -, -, -, ⟨e0, e1, e2⟩⟩ := idx_facts t
  show (cfg0.win 4).cut (grid0.coords t) ((dats m 0 c).after 4 t) = _
  rw [after0_4]
  funext y
  obtain ⟨y0, y1, y2, rfl⟩ : ∃ (y0 : Fin 1) (y1 : Fin 256) (y2 : Fin 4096), y = ix3 y0 y1 y2 := ⟨y 0, y 1, y 2, eq_ix3 y⟩
  rw [View.read_apply]
  have hi : ((cfg0.win 4).blk t).view.emb (ix3 y0 y1 y2) = ix3 (⟨t.val, hN⟩ : Fin 16) y1 y2 := by
    funext a
    apply Fin.ext
    have hy0 : y0.val = 0 := by omega
    match a with
    | ⟨0, _⟩ => show win0_4.index t (0 : Fin 3) * 1 + 1 * y0.val = t.val; rw [e0, hy0]; omega
    | ⟨1, _⟩ => show win0_4.index t (1 : Fin 3) * 256 + 1 * y1.val = y1.val; rw [e1]; omega
    | ⟨2, _⟩ => show win0_4.index t (2 : Fin 3) * 4096 + 1 * y2.val = y2.val; rw [e2]; omega
  rw [hi]
  exact point_eq (xA m c) (pA m c) ⟨t.val, hN⟩ (iblk m c 0 t) (iblk m c 1 t) (iblk m c 2 t) (iblk m c 3 t)
    (funext fun c' => funext fun n => blk0_apply m c t ⟨t.val, hN⟩ rfl c' n)
    (funext fun c' => funext fun r => blk1_apply m c t ⟨t.val, hN⟩ rfl c' r)
    (funext fun c' => funext fun r => blk2_apply m c t ⟨t.val, hN⟩ rfl c' r)
    (funext fun c' => blk3_apply m c t ⟨t.val, hN⟩ rfl c')
    y0 y1 y2

/-! ## The sixteen images tile the output array -/

theorem mem_blk4 (t : Fin cfg0.N) (i : S16x256x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v7).slice (win0_4.rect t)).set ↔ _
  rw [View.set_slice_whole, Rect.mem_set_unit]
  exact Iff.rfl

theorem cover4 (i : S16x256x4096.Idx) :
    ∃ t : Fin cfg0.N, (cfg0.win 4).flush t = true ∧ i ∈ ((cfg0.win 4).blk t).view.set := by
  have h0 : (i 0).val < 16 := (i 0).isLt
  have h1 : (i 1).val < 256 := (i 1).isLt
  have h2 : (i 2).val < 4096 := (i 2).isLt
  have hN : (i 0).val < cfg0.N := lt_of_lt_of_eq h0 N_0.symm
  refine ⟨⟨(i 0).val, hN⟩, flush0_4 _, ?_⟩
  obtain ⟨-, -, -, -, ⟨e0, e1, e2⟩⟩ := idx_facts ⟨(i 0).val, hN⟩
  rw [mem_blk4]
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 256 ≤ (i 1).val ∧ (i 1).val < win0_4.index _ (1 : Fin 3) * 256 + 256
    rw [e1]; omega
  | ⟨2, _⟩ =>
    show win0_4.index _ (2 : Fin 3) * 4096 ≤ (i 2).val ∧ (i 2).val < win0_4.index _ (2 : Fin 3) * 4096 + 4096
    rw [e2]; omega

/-- The output array after the region: the flattened result. -/
theorem final4 (c : Dev nD) : (dats m 0 c).arrAt 4 cfg0.N = Gflat (xA m c) (pA m c) :=
  (dats m 0 c).arrAt_eq_of_cover 4 (Gflat (xA m c) (pA m c)) (fun t _ => flushed_eq m c t) cover4

/-! ## The planes restored, and the run -/

theorem unflatten (x : XIdx → EReal) (p : PIdx → EReal) :
    shapeCast S16x256x64x64 (Gflat x p) shapeCasts_S16x256x4096_S16x256x64x64 = G x p := by
  funext i
  obtain ⟨b, c', h, w, rfl⟩ : ∃ (b : Fin 16) (c' : Fin 256) (h w : Fin 64), i = ix4 b c' h w :=
    ⟨i 0, i 1, i 2, i 3, eq_ix4 i⟩
  refine (shapeCast_apply (Gflat x p) _ _ (ix3 b c' (pix h w)) ?_).trans ?_
  · rw [Shape.rowMajor_val_three, Shape.rowMajor_val_four]
    show (b.val * 256 + c'.val) * 4096 + (64 * h.val + w.val) = ((b.val * 256 + c'.val) * 64 + h.val) * 64 + w.val
    omega
  · rfl

/-- The operation after the region, over any contents of the output array. -/
theorem tail_of (A : S16x256x4096.Idx → EReal) (W : Valuation τ sig (Elt Ideal))
    (hW : W (Proc.devRef .tc main_v7) = A) :
    StableHlo.after hostOps1 W (Proc.devRef .tc main_v8)
      = shapeCast S16x256x64x64 A shapeCasts_S16x256x4096_S16x256x64x64 := by
  after_results
  rw [hW]
  rfl

theorem result_eq (c : Dev nD) :
    Pipeline.afterTail₀ cfgs (dats m) 0 (V0 m) [hostOps1] c main_v8 = G (xA m c) (pA m c) := by
  unfold Pipeline.afterTail₀
  show StableHlo.after hostOps1 _ (Proc.devRef .tc main_v8) = _
  exact (tail_of (Gflat (xA m c) (pA m c)) _
    ((Pipeline.withArrays_arr spec0 launch0.win.arr_inj c _ _ 4).trans (final4 m c))).trans (unflatten (xA m c) (pA m c))

/-- The kernel's run, read: the result at `G` of the arguments, the arguments unchanged. -/
theorem run : θ_run defs (onTc (τ := τ) (main (F := Ideal))) ⟨m, fun _ => 0, ρ⟩ fun r => ∀ c : Dev nD,
      r.2.mem ((c.tc : Thread nD τ).loc main_v8) = G (xA m c) (pA m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v8 (Pipeline.mem_restRefs_of main_v8 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Arr

end
-- ==== Proof.RefTerm.lean ====
/-
  The reference's result as a pure function of its two argument arrays, in stages.

  Each stage is the composition of the printed operations' own terms, in the order @main (and the two
  functions it calls) apply them, generic in the float values: a group normalisation of the first
  argument over groups of 32768 entries (sum, mean, centring, variance, reciprocal square root), then a
  rank-12 correction and a per-channel shift read out of the second argument.
-/
import proofs.«164726_j807453851999_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The first argument regrouped: 16 × 32 groups of 32768 consecutive entries (%0). -/
def grouped (x : FVec F S16x256x64x64 .f32) : FVec F S16x32x32768 .f32 :=
  shapeCast S16x32x32768 x shapeCasts_S16x256x64x64_S16x32x32768

/-- Each group's sum, from 0, kept as a column of length one (%1, %2; in the variance, its %0, %1 and %9, %10). -/
def total (y : FVec F S16x32x32768 .f32) : FVec F S16x32x1 .f32 :=
  broadcastInDim S16x32x1 ![0, 1] bcast_S16x32_S16x32x1_0_1
    (Host.reduceAdd y (constant S_ .f32 0x00000000#32) reducesTo_S16x32x32768_S16x32_d2 h_S_)

/-- Each group's mean: its sum over 32768 (%3, %4). -/
def mean (y : FVec F S16x32x32768 .f32) : FVec F S16x32x1 .f32 :=
  Host.divf (total y) (broadcastInDim S16x32x1 ![] bcast_S_S16x32x1 (constant S_ .f32 0x47000000#32))

/-- A per-group value repeated along its group (%6, %11). -/
def spread (z : FVec F S16x32x1 .f32) : FVec F S16x32x32768 .f32 :=
  broadcastInDim S16x32x32768 ![0, 1, 2] bcast_S16x32x1_S16x32x32768_0_1_2 z

/-- Each entry less its group's mean (%7). -/
def centred (y : FVec F S16x32x32768 .f32) : FVec F S16x32x32768 .f32 :=
  subf y (spread (mean y))

/-- The variance's divisor: 32768 less the correction 0 converted from an integer (the variance's %8). -/
def count : FVec F S_ .f32 :=
  subf (constant S_ .f32 0x47000000#32) (sitofp .f32 (constantI S_ 32 0#32))

/-- Each group's variance: the sum of the squared centred entries over the divisor where the divisor is
    positive, the quiet NaN elsewhere (the called function's %12, %13 and the select of the function it
    calls, whose conversion of the NaN constant is the identity). -/
def variance (y : FVec F S16x32x32768 .f32) : FVec F S16x32x1 .f32 :=
  select (broadcastInDim S16x32x1 ![] bcast_S_S16x32x1 (cmpf .ogt (count (F := F)) (constant S_ .f32 0x00000000#32)))
    (Host.divf (total (mulf (centred y) (centred y))) (broadcastInDim S16x32x1 ![] bcast_S_S16x32x1 count))
    (broadcastInDim S16x32x1 ![] bcast_S_S16x32x1 (constant S_ .f32 0x7FC00000#32))

/-- The normalised entries: centred, times the reciprocal square root of variance plus 1e-6 (%8 to %12). -/
def normed (y : FVec F S16x32x32768 .f32) : FVec F S16x32x32768 .f32 :=
  mulf (centred y)
    (spread (Host.rsqrt (addf (variance y) (broadcastInDim S16x32x1 ![] bcast_S_S16x32x1 (constant S_ .f32 0x358637BD#32)))))

/-- The normalised array back at 16 × 256 × 64 × 64, then with each 64 × 64 plane flattened (%13, %20). -/
def flat (x : FVec F S16x256x64x64 .f32) : FVec F S16x256x4096 .f32 :=
  shapeCast S16x256x4096 (shapeCast S16x256x64x64 (normed (grouped x)) shapeCasts_S16x32x32768_S16x256x64x64)
    shapeCasts_S16x256x64x64_S16x256x4096

/-- Columns 0 to 3071 of the second argument as 256 × 12 per row (%14, %15). -/
def uOf (p : FVec F S16x6400 .f32) : FVec F S16x256x12 .f32 :=
  shapeCast S16x256x12 (extractStridedSlice S16x3072 ![0, 0] p slices_S16x6400_S16x3072_0_0) shapeCasts_S16x3072_S16x256x12

/-- Columns 3072 to 6143 of the second argument as 256 × 12 per row (%16, %17). -/
def vOf (p : FVec F S16x6400 .f32) : FVec F S16x256x12 .f32 :=
  shapeCast S16x256x12 (extractStridedSlice S16x3072 ![0, 3072] p slices_S16x6400_S16x3072_0_3072) shapeCasts_S16x3072_S16x256x12

/-- Columns 6144 to 6399 of the second argument as one value per channel (%18, %19). -/
def shiftOf (p : FVec F S16x6400 .f32) : FVec F S16x256x1x1 .f32 :=
  shapeCast S16x256x1x1 (extractStridedSlice S16x256 ![0, 6144] p slices_S16x6400_S16x256_0_6144) shapeCasts_S16x256_S16x256x1x1

/-- The second factor transposed against the flattened normalised array: contraction over the 256 channels (%21). -/
def vtx (x : FVec F S16x256x64x64 .f32) (p : FVec F S16x6400 .f32) : FVec F S16x12x4096 .f32 :=
  Host.dotGeneral dot_S16x256x12_S16x256x4096_S16x12x4096_1_1_2_2_0_0 none (vOf p) (flat x)

/-- The first factor against that: contraction over the 12 columns (%22). -/
def mixed (x : FVec F S16x256x64x64 .f32) (p : FVec F S16x6400 .f32) : FVec F S16x256x4096 .f32 :=
  Host.dotGeneral dot_S16x256x12_S16x12x4096_S16x256x4096_2_1_1_2_0_0 none (uOf p) (vtx x p)

/-- The result: the normalised array plus its rank-12 correction, back at 16 × 256 × 64 × 64, plus the
    per-channel shift repeated over each plane (%23 to %26). -/
def refOut (x : FVec F S16x256x64x64 .f32) (p : FVec F S16x6400 .f32) : FVec F S16x256x64x64 .f32 :=
  addf (shapeCast S16x256x64x64 (addf (flat x) (mixed x p)) shapeCasts_S16x256x4096_S16x256x64x64)
    (broadcastInDim S16x256x64x64 ![0, 1, 2, 3] bcast_S16x256x1x1_S16x256x64x64_0_1_2_3 (shiftOf p))

end Cert.ReferenceIdeal.RefTerm

end
-- ==== Proof.RefRun.lean ====
/-
  The reference program's @main as one list of its 53 host operations, and its run read back.

  @main calls one function (a variance over the last axis), which itself calls one (a select against a
  constant); a call executes the callee's body on the operands, so the list holds the callee's operations
  in the caller's place, over the buffers that call names. Every weakly fair execution then terminates with
  the result buffer at the operations' composed term of the two arguments' launch contents, which is
  `RefTerm.refOut` of them, and with the two arguments unchanged.
-/
import proofs.«164726_j807453851999_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order: its first eight, the variance function's twenty over the record
    of that call (its arguments the regrouped array and the integer zero), the selecting function's three
    over the nested record, then @main's remaining twenty-two. -/
abbrev ops : List (HloOp τ sig (Elt F)) :=
  [
    reshape main_arg0 main_v0 rfl shapeCasts_S16x256x64x64_S16x32x32768,
    nullary main_cst (constant S_ .f32 0x00000000#32),
    binary main_v0 main_cst main_v1 ((fun x v => Host.reduceAdd x v reducesTo_S16x32x32768_S16x32_d2 h_S_) : (⟨S16x32x32768, .f32⟩ : BufTy).Contents (Elt F) → (⟨S_, .f32⟩ : BufTy).Contents (Elt F) → (⟨S16x32, .f32⟩ : BufTy).Contents (Elt F)),
    unary main_v1 main_v2 (broadcastInDim S16x32x1 ![0, 1] bcast_S16x32_S16x32x1_0_1 : (⟨S16x32, .f32⟩ : BufTy).Contents (Elt F) → (⟨S16x32x1, .f32⟩ : BufTy).Contents (Elt F)),
    nullary main_cst_0 (constant S_ .f32 0x47000000#32),
    unary main_cst_0 main_v3 (broadcastInDim S16x32x1 ![] bcast_S_S16x32x1 : (⟨S_, .f32⟩ : BufTy).Contents (Elt F) → (⟨S16x32x1, .f32⟩ : BufTy).Contents (Elt F)),
    binary main_v2 main_v3 main_v4 (Host.divf : (⟨S16x32x1, .f32⟩ : BufTy).Contents (Elt F) → (⟨S16x32x1, .f32⟩ : BufTy).Contents (Elt F) → (⟨S16x32x1, .f32⟩ : BufTy).Contents (Elt F)),
    nullary main_c (constantI S_ 32 0#32),
    TRef.nullary main_call0.cst (constant S_ .f32 0x00000000#32),
    TRef.binary (.of main_v0 : TRef sig ⟨S16x32x32768, .f32⟩) main_call0.cst main_call0.v0 (fun x v => Host.reduceAdd x v reducesTo_S16x32x32768_S16x32_d2 h_S_),
    TRef.unary main_call0.v0 main_call0.v1 (broadcastInDim S16x32x1 ![0, 1] bcast_S16x32_S16x32x1_0_1),
    TRef.nullary main_call0.cst_0 (constant S_ .f32 0x47000000#32),
    TRef.unary main_call0.cst_0 main_call0.v2 (broadcastInDim S16x32x1 ![] bcast_S_S16x32x1),
    TRef.binary main_call0.v1 main_call0.v2 main_call0.v3 Host.divf,
    TRef.unary main_call0.v3 main_call0.v4 (broadcastInDim S16x32x32768 ![0, 1, 2] bcast_S16x32x1_S16x32x32768_0_1_2),
    TRef.binary (.of main_v0 : TRef sig ⟨S16x32x32768, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x32x32768_S16x32_d2 h_S_),
    TRef.unary main_call0.v9 main_call0.v10 (broadcastInDim S16x32x1 ![0, 1] bcast_S16x32_S16x32x1_0_1),
    TRef.unary main_call0.v8 main_call0.v11 (broadcastInDim S16x32x1 ![] bcast_S_S16x32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16x32x1 ![] bcast_S_S16x32x1),
    TRef.ternary main_call0.v13 main_call0.v12 main_call0.call0.v1 main_call0.call0.v2 (fun p a b => select (broadcastInDim S16x32x1 ![] bcast_S_S16x32x1 p) a b),
    unary main_v4 main_v6 (broadcastInDim S16x32x32768 ![0, 1, 2] bcast_S16x32x1_S16x32x32768_0_1_2 : (⟨S16x32x1, .f32⟩ : BufTy).Contents (Elt F) → (⟨S16x32x32768, .f32⟩ : BufTy).Contents (Elt F)),
    binary main_v0 main_v6 main_v7 (subf : (⟨S16x32x32768, .f32⟩ : BufTy).Contents (Elt F) → (⟨S16x32x32768, .f32⟩ : BufTy).Contents (Elt F) → (⟨S16x32x32768, .f32⟩ : BufTy).Contents (Elt F)),
    nullary main_cst_1 (constant S_ .f32 0x358637BD#32),
    unary main_cst_1 main_v8 (broadcastInDim S16x32x1 ![] bcast_S_S16x32x1 : (⟨S_, .f32⟩ : BufTy).Contents (Elt F) → (⟨S16x32x1, .f32⟩ : BufTy).Contents (Elt F)),
    binary main_v5 main_v8 main_v9 (addf : (⟨S16x32x1, .f32⟩ : BufTy).Contents (Elt F) → (⟨S16x32x1, .f32⟩ : BufTy).Contents (Elt F) → (⟨S16x32x1, .f32⟩ : BufTy).Contents (Elt F)),
    unary main_v9 main_v10 (Host.rsqrt : (⟨S16x32x1, .f32⟩ : BufTy).Contents (Elt F) → (⟨S16x32x1, .f32⟩ : BufTy).Contents (Elt F)),
    unary main_v10 main_v11 (broadcastInDim S16x32x32768 ![0, 1, 2] bcast_S16x32x1_S16x32x32768_0_1_2 : (⟨S16x32x1, .f32⟩ : BufTy).Contents (Elt F) → (⟨S16x32x32768, .f32⟩ : BufTy).Contents (Elt F)),
    binary main_v7 main_v11 main_v12 (mulf : (⟨S16x32x32768, .f32⟩ : BufTy).Contents (Elt F) → (⟨S16x32x32768, .f32⟩ : BufTy).Contents (Elt F) → (⟨S16x32x32768, .f32⟩ : BufTy).Contents (Elt F)),
    reshape main_v12 main_v13 rfl shapeCasts_S16x32x32768_S16x256x64x64,
    unary main_arg1 main_v14 ((extractStridedSlice S16x3072 ![0, 0] · slices_S16x6400_S16x3072_0_0) : (⟨S16x6400, .f32⟩ : BufTy).Contents (Elt F) → (⟨S16x3072, .f32⟩ : BufTy).Contents (Elt F)),
    reshape main_v14 main_v15 rfl shapeCasts_S16x3072_S16x256x12,
    unary main_arg1 main_v16 ((extractStridedSlice S16x3072 ![0, 3072] · slices_S16x6400_S16x3072_0_3072) : (⟨S16x6400, .f32⟩ : BufTy).Contents (Elt F) → (⟨S16x3072, .f32⟩ : BufTy).Contents (Elt F)),
    reshape main_v16 main_v17 rfl shapeCasts_S16x3072_S16x256x12,
    unary main_arg1 main_v18 ((extractStridedSlice S16x256 ![0, 6144] · slices_S16x6400_S16x256_0_6144) : (⟨S16x6400, .f32⟩ : BufTy).Contents (Elt F) → (⟨S16x256, .f32⟩ : BufTy).Contents (Elt F)),
    reshape main_v18 main_v19 rfl shapeCasts_S16x256_S16x256x1x1,
    reshape main_v13 main_v20 rfl shapeCasts_S16x256x64x64_S16x256x4096,
    binary main_v17 main_v20 main_v21 ((fun l r => Host.dotGeneral dot_S16x256x12_S16x256x4096_S16x12x4096_1_1_2_2_0_0 none l r) : (⟨S16x256x12, .f32⟩ : BufTy).Contents (Elt F) → (⟨S16x256x4096, .f32⟩ : BufTy).Contents (Elt F) → (⟨S16x12x4096, .f32⟩ : BufTy).Contents (Elt F)),
    binary main_v15 main_v21 main_v22 ((fun l r => Host.dotGeneral dot_S16x256x12_S16x12x4096_S16x256x4096_2_1_1_2_0_0 none l r) : (⟨S16x256x12, .f32⟩ : BufTy).Contents (Elt F) → (⟨S16x12x4096, .f32⟩ : BufTy).Contents (Elt F) → (⟨S16x256x4096, .f32⟩ : BufTy).Contents (Elt F)),
    binary main_v20 main_v22 main_v23 (addf : (⟨S16x256x4096, .f32⟩ : BufTy).Contents (Elt F) → (⟨S16x256x4096, .f32⟩ : BufTy).Contents (Elt F) → (⟨S16x256x4096, .f32⟩ : BufTy).Contents (Elt F)),
    reshape main_v23 main_v24 rfl shapeCasts_S16x256x4096_S16x256x64x64,
    unary main_v19 main_v25 (broadcastInDim S16x256x64x64 ![0, 1, 2, 3] bcast_S16x256x1x1_S16x256x64x64_0_1_2_3 : (⟨S16x256x1x1, .f32⟩ : BufTy).Contents (Elt F) → (⟨S16x256x64x64, .f32⟩ : BufTy).Contents (Elt F)),
    binary main_v24 main_v25 main_v26 (addf : (⟨S16x256x64x64, .f32⟩ : BufTy).Contents (Elt F) → (⟨S16x256x64x64, .f32⟩ : BufTy).Contents (Elt F) → (⟨S16x256x64x64, .f32⟩ : BufTy).Contents (Elt F)) ]

-- fifty-three binds re-associated: the rewrite under the chain recurses once per statement
set_option maxRecDepth 4096 in
/-- @main is that straight line: the two functions' definitions unfolded at their calls, both sides are one
    chain of steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., reshape_bufs_sub .., unary_bufs_sub .., reshape_bufs_sub ..,
    unary_bufs_sub .., reshape_bufs_sub .., unary_bufs_sub .., reshape_bufs_sub .., reshape_bufs_sub .., binary_bufs_sub ..,
    binary_bufs_sub .., binary_bufs_sub .., reshape_bufs_sub .., unary_bufs_sub .., binary_bufs_sub ..⟩

attribute [local irreducible] Host.reduceAdd Host.divf Host.rsqrt in
set_option maxRecDepth 8192 in
set_option maxHeartbeats 400000 in
/-- The fold at the result buffer is the staged term: the fold unrolled, each operation's result read at the
    buffer it writes and passed over at every other, and the typed references' transports the identity at
    these literal references. The sums, quotients and reciprocal square roots stay folded (the contractions are
    a field of the float values, opaque while those are arbitrary): the equation never looks inside them. -/
theorem out_eq (V : Valuation τ sig (Elt F)) :
    after ops V (main_v26 : DevRef τ sig)
      = RefTerm.refOut (V (main_arg0 : DevRef τ sig)) (V (main_arg1 : DevRef τ sig)) := by
  after_results_simp
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result at the staged term of the two arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefRun

end
-- ==== Proof.LibVariance.lean ====
/-
  The population variance of finitely many reals, two ways.

  For reals h_i over a finite index set of n elements with mean μ = (Σ h_i) / n, the mean of the squared deviations
  (Σ (h_i − μ)²) / n equals the mean of the squares minus the square of the mean, (Σ h_i²) / n − μ²; being a mean of
  squares it is nonnegative, so taking its maximum with zero changes nothing.  On the extended reals the identity
  needs every h_i finite: with an infinite entry the two sides differ.  The lemmas below state it for reals and carry
  it to the extended reals, where a quotient by a nonzero real is the product with its reciprocal.
-/
import Idealize.ShloMosaic.PureOps.Ideal

noncomputable section

namespace Cert.Variance

open Idealize.ShloMosaic

variable {ι : Type*}

/-- The mean of the squared deviations is the mean of the squares minus the square of the mean. -/
theorem var_real (s : Finset ι) (h : ι → ℝ) (n : ℝ) (hn : n ≠ 0) (hc : (s.card : ℝ) = n) :
    (∑ i ∈ s, (h i - (∑ j ∈ s, h j) / n) * (h i - (∑ j ∈ s, h j) / n)) / n
      = (∑ i ∈ s, h i * h i) / n - ((∑ j ∈ s, h j) / n) * ((∑ j ∈ s, h j) / n) := by
  have key : ∑ i ∈ s, (h i - (∑ j ∈ s, h j) / n) * (h i - (∑ j ∈ s, h j) / n)
      = (∑ i ∈ s, h i * h i) - 2 * ((∑ j ∈ s, h j) / n) * (∑ j ∈ s, h j)
        + (s.card : ℝ) * (((∑ j ∈ s, h j) / n) * ((∑ j ∈ s, h j) / n)) := by
    have : ∀ i, (h i - (∑ j ∈ s, h j) / n) * (h i - (∑ j ∈ s, h j) / n)
        = h i * h i - 2 * ((∑ j ∈ s, h j) / n) * h i + ((∑ j ∈ s, h j) / n) * ((∑ j ∈ s, h j) / n) := fun i => by ring
    simp only [this, Finset.sum_add_distrib, Finset.sum_sub_distrib, ← Finset.mul_sum, Finset.sum_const, nsmul_eq_mul]
    ring
  rw [key, hc]
  field_simp
  ring

/-- The mean of the squared deviations is nonnegative. -/
theorem var_real_nonneg (s : Finset ι) (h : ι → ℝ) (n : ℝ) (hn : 0 < n) (μ : ℝ) :
    0 ≤ (∑ i ∈ s, (h i - μ) * (h i - μ)) / n :=
  div_nonneg (Finset.sum_nonneg fun i _ => mul_self_nonneg _) hn.le

/-- Hence the mean of the squares minus the square of the mean is its own maximum with zero. -/
theorem max_zero_var_real (s : Finset ι) (h : ι → ℝ) (n : ℝ) (hn : 0 < n) (hc : (s.card : ℝ) = n) :
    max ((∑ i ∈ s, h i * h i) / n - ((∑ j ∈ s, h j) / n) * ((∑ j ∈ s, h j) / n)) 0
      = (∑ i ∈ s, (h i - (∑ j ∈ s, h j) / n) * (h i - (∑ j ∈ s, h j) / n)) / n := by
  rw [← var_real s h n hn.ne' hc]
  exact max_eq_left (var_real_nonneg s h n hn _)

/-- A finite sum of reals, read in the extended reals, is the sum of the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real, computed in the extended reals, is the real quotient. -/
theorem div_coe_coe (x y : ℝ) (hy : y ≠ 0) : Ideal.div (x : EReal) (y : EReal) = ((x / y : ℝ) : EReal) := by
  rw [Ideal.div_coe hy, ← EReal.coe_mul]
  congr 1
  field_simp

end Cert.Variance

end
-- ==== Proof.VarLaw.lean ====
/-
  The two ways of taking a group's mean and variance agree on real data.

  A group has 32768 = 8 · 4096 entries.  One side numbers them j = 4096·k + n and divides sums by 32768, taking the variance
  as the mean of the squared deviations from the mean; the other sums over (k, n) and multiplies by 2^(-15), taking the
  variance as the mean of the squares minus the square of the mean.  On the extended reals the two agree when every entry
  is a real number (with an infinite entry they need not): the sums are then real sums, division by the real 32768 is
  multiplication by its reciprocal, and the variance identity is the one of real algebra.
-/
import proofs.«164726_j807453851999_2_alg».proof.Proof.Spec
import proofs.«164726_j807453851999_2_alg».proof.Proof.LibVariance
import Idealize.ShloMosaic.PureOps.Ideal.Laws

noncomputable section

namespace Cert.GroupMix

open Idealize.ShloMosaic

/-! ## The constants -/

/-- The group size as the programs spell it. -/
theorem ofBits_N : Ideal.ofBits .f32 0x47000000#32 = ((32768 : ℝ) : EReal) := by
  simp [Ideal.ofBits, Ideal.ieee, -EReal.coe_mul]; norm_num

/-- Its reciprocal as the programs spell it. -/
theorem invN_eq : invN = ((1 / 32768 : ℝ) : EReal) := by
  unfold invN
  simp [Ideal.ofBits, Ideal.ieee, -EReal.coe_mul]; norm_num

/-- The group size less the integer zero read as a float. -/
theorem count_eq : Ideal.ofBits .f32 0x47000000#32 - (((0#32 : BitVec 32).toInt : ℝ) : EReal) = ((32768 : ℝ) : EReal) := by
  rw [ofBits_N]
  simp

/-- It is positive. -/
theorem count_pos : Ideal.cmp .ogt ((32768 : ℝ) : EReal) (Ideal.ofBits .f32 0x00000000#32) = 1#1 := by
  rw [Ideal.ofBits_zero_f32]
  simp [Ideal.cmp]

/-! ## Numbering a group's entries -/

/-- Entry j of a group sits in row j / 4096 … -/
def hi (j : Fin 32768) : Fin 8 := ⟨j.val / 4096, by have := j.isLt; omega⟩
/-- … at place j % 4096. -/
def lo (j : Fin 32768) : Fin 4096 := ⟨j.val % 4096, Nat.mod_lt _ (by norm_num)⟩

/-- A sum over the entries by number is the sum over rows and places. -/
theorem sum_split {M : Type*} [AddCommMonoid M] (f : Fin 8 → Fin 4096 → M) :
    ∑ j : Fin 32768, f (hi j) (lo j) = ∑ k : Fin 8, ∑ n : Fin 4096, f k n := by
  rw [← Fintype.sum_prod_type', ← Equiv.sum_comp (finProdFinEquiv (m := 8) (n := 4096))]
  refine Finset.sum_congr rfl fun q _ => ?_
  obtain ⟨k, n⟩ := q
  have hk : hi (finProdFinEquiv (k, n)) = k := Fin.ext (by
    show (n.val + 4096 * k.val) / 4096 = k.val
    have := n.isLt; omega)
  have hn : lo (finProdFinEquiv (k, n)) = n := Fin.ext (by
    show (n.val + 4096 * k.val) % 4096 = n.val
    have := n.isLt; omega)
  rw [hk, hn]

/-! ## The entries numbered, divided by the group size -/

section Numbered

variable (a : Fin 32768 → ℝ)

/-- The mean, by division. -/
theorem meanR_eq :
    Ideal.div (Ideal.ofBits .f32 0x00000000#32 + ∑ j : Fin 32768, ((a j : ℝ) : EReal)) (Ideal.ofBits .f32 0x47000000#32)
      = (((∑ j : Fin 32768, a j) / 32768 : ℝ) : EReal) := by
  rw [Ideal.ofBits_zero_f32, zero_add, ofBits_N, ← Variance.coe_sum, Variance.div_coe_coe _ _ (by norm_num)]

/-- The mean of the squared deviations from a real μ, by division. -/
theorem varR_eq (μ : ℝ) :
    Ideal.div (Ideal.ofBits .f32 0x00000000#32
        + ∑ j : Fin 32768, (((a j : ℝ) : EReal) - (μ : EReal)) * (((a j : ℝ) : EReal) - (μ : EReal)))
      (Ideal.ofBits .f32 0x47000000#32 - (((0#32 : BitVec 32).toInt : ℝ) : EReal))
      = (((∑ j : Fin 32768, (a j - μ) * (a j - μ)) / 32768 : ℝ) : EReal) := by
  have e : ∀ j : Fin 32768, (((a j : ℝ) : EReal) - (μ : EReal)) * (((a j : ℝ) : EReal) - (μ : EReal))
      = (((a j - μ) * (a j - μ) : ℝ) : EReal) := fun j => by rw [← EReal.coe_sub, ← EReal.coe_mul]
  simp only [e]
  rw [Ideal.ofBits_zero_f32, zero_add, count_eq, ← Variance.coe_sum, Variance.div_coe_coe _ _ (by norm_num)]

end Numbered

/-! ## The entries by row and place, scaled by the reciprocal -/

section ByRow

variable (h : Fin 8 → Fin 4096 → ℝ)

/-- The mean, by the reciprocal. -/
theorem meanK_eq :
    (∑ k : Fin 8, ∑ n : Fin 4096, ((h k n : ℝ) : EReal)) * invN
      = (((∑ k : Fin 8, ∑ n : Fin 4096, h k n) / 32768 : ℝ) : EReal) := by
  have e : (∑ k : Fin 8, ∑ n : Fin 4096, ((h k n : ℝ) : EReal)) = ((∑ k : Fin 8, ∑ n : Fin 4096, h k n : ℝ) : EReal) := by
    rw [Variance.coe_sum]
    exact Finset.sum_congr rfl fun k _ => (Variance.coe_sum _ _).symm
  rw [e, invN_eq, ← EReal.coe_mul, mul_one_div]

/-- The mean of the squares less the square of a real μ, by the reciprocal. -/
theorem varK_eq (μ : ℝ) :
    (∑ k : Fin 8, ∑ n : Fin 4096, ((h k n : ℝ) : EReal) * ((h k n : ℝ) : EReal)) * invN - (μ : EReal) * (μ : EReal)
      = (((∑ k : Fin 8, ∑ n : Fin 4096, h k n * h k n) / 32768 - μ * μ : ℝ) : EReal) := by
  have e : (∑ k : Fin 8, ∑ n : Fin 4096, ((h k n : ℝ) : EReal) * ((h k n : ℝ) : EReal))
      = ((∑ k : Fin 8, ∑ n : Fin 4096, h k n * h k n : ℝ) : EReal) := by
    rw [Variance.coe_sum]
    refine Finset.sum_congr rfl fun k _ => ?_
    rw [Variance.coe_sum]
    exact Finset.sum_congr rfl fun n _ => (EReal.coe_mul _ _).symm
  rw [e, invN_eq, ← EReal.coe_mul, ← EReal.coe_mul, ← EReal.coe_sub, mul_one_div]

/-- The two means agree. -/
theorem mean_law :
    Ideal.div (Ideal.ofBits .f32 0x00000000#32 + ∑ j : Fin 32768, ((h (hi j) (lo j) : ℝ) : EReal)) (Ideal.ofBits .f32 0x47000000#32)
      = (∑ k : Fin 8, ∑ n : Fin 4096, ((h k n : ℝ) : EReal)) * invN := by
  rw [meanR_eq (fun j => h (hi j) (lo j)), meanK_eq, sum_split (fun k n => h k n)]

/-- The two variances agree, each about its own side's mean. -/
theorem var_law (μ : ℝ) (hμ : μ = (∑ k : Fin 8, ∑ n : Fin 4096, h k n) / 32768) :
    Ideal.div (Ideal.ofBits .f32 0x00000000#32
        + ∑ j : Fin 32768, (((h (hi j) (lo j) : ℝ) : EReal) - (μ : EReal)) * (((h (hi j) (lo j) : ℝ) : EReal) - (μ : EReal)))
      (Ideal.ofBits .f32 0x47000000#32 - (((0#32 : BitVec 32).toInt : ℝ) : EReal))
      = (∑ k : Fin 8, ∑ n : Fin 4096, ((h k n : ℝ) : EReal) * ((h k n : ℝ) : EReal)) * invN - (μ : EReal) * (μ : EReal) := by
  rw [varR_eq (fun j => h (hi j) (lo j)) μ, varK_eq h μ]
  congr 1
  have hs : (∑ j : Fin 32768, h (hi j) (lo j)) = ∑ k : Fin 8, ∑ n : Fin 4096, h k n := sum_split (fun k n => h k n)
  have hq : (∑ j : Fin 32768, h (hi j) (lo j) * h (hi j) (lo j)) = ∑ k : Fin 8, ∑ n : Fin 4096, h k n * h k n :=
    sum_split (fun k n => h k n * h k n)
  have hv := Variance.var_real (Finset.univ : Finset (Fin 32768)) (fun j => h (hi j) (lo j)) 32768 (by norm_num)
    (by simp)
  rw [hs, hq] at hv
  rw [hμ]
  exact hv

end ByRow

end Cert.GroupMix

end
-- ==== Proof.RefRead.lean ====
/-
  The reference's staged term read at an index, at the ideal values.

  Each stage of `RefTerm` is a composition of regroupings, slices, repetitions, pointwise operations, sums along
  the last axis and contractions; at the ideal values (a float an extended real, every operation its textbook
  one) each reads at an index as the plain expression over the entries of the two argument arrays: a group's sum,
  mean and variance, the normalised entry, the entries of the two 256 × 12 matrices and the shift, the two
  contractions as finite sums, and the result as their combination.
-/
import proofs.«164726_j807453851999_2_alg».proof.Proof.RefTerm
import proofs.«164726_j807453851999_2_alg».proof.Proof.Spec
import proofs.«164726_j807453851999_2_alg».proof.Proof.VarLaw
import proofs.«164726_j807453851999_2_alg».proof.Proof.LibDotRead
import proofs.«164726_j807453851999_2_alg».proof.Proof.LibGroupOps
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefRead

open Cert.ReferenceIdeal Cert.ReferenceIdeal.Gen Cert.ReferenceIdeal.RefTerm Cert.GroupMix Idealize.ShloMosaic Idealize.ShloMosaic.ValueIdx

/-! ## The per-group quantities, as plain expressions -/

/-- A group's sum as the host forms it: from the pattern of zero, plus the 32768 terms. -/
def gsum (f : Fin 32768 → EReal) : EReal := Ideal.ofBits .f32 0x00000000#32 + ∑ j : Fin 32768, f j

/-- The mean of group (b, g): its sum over 32768. -/
def meanR (y : FVec Ideal S16x32x32768 .f32) (b : Fin 16) (g : Fin 32) : EReal :=
  Ideal.div (gsum fun j => y (ix3 b g j)) (Ideal.ofBits .f32 0x47000000#32)

/-- The variance's divisor: 32768 less the integer correction 0. -/
def cnt : EReal := Ideal.ofBits .f32 0x47000000#32 - (((0#32 : BitVec 32).toInt : ℝ) : EReal)

/-- The variance of group (b, g): the sum of the squared centred entries over the divisor where the divisor is
    positive, the quiet NaN's pattern elsewhere. -/
def varR (y : FVec Ideal S16x32x32768 .f32) (b : Fin 16) (g : Fin 32) : EReal :=
  Scalar.select (Ideal.cmp .ogt cnt (Ideal.ofBits .f32 0x00000000#32))
    (Ideal.div (gsum fun j => (y (ix3 b g j) - meanR y b g) * (y (ix3 b g j) - meanR y b g)) cnt)
    (Ideal.ofBits .f32 0x7FC00000#32)

/-! ## The group normalisation -/

/-- Dropping the last axis of 16 × 32 × 32768 leaves 16 × 32. -/
theorem redLast : S16x32x32768.Reduces [2] S16x32 := by decide

/-- A group's sum, kept as a column of length one, at its only place. -/
theorem total_apply (y : FVec Ideal S16x32x32768 .f32) (b : Fin 16) (g : Fin 32) (u : Fin 1) :
    total y (ix3 b g u) = gsum fun j => y (ix3 b g j) := by
  unfold total
  refine (broadcastInDim_apply _ _ _ _ (ix2 b g) fun a => ?_).trans ?_
  · match a with
    | ⟨0, _⟩ => rfl
    | ⟨1, _⟩ => rfl
  · refine (Ideal.hostReduceAdd_single reducesTo_S16x32x32768_S16x32_d2 redLast y _ (ix2 b g)).trans ?_
    unfold gsum
    exact congrArg₂ (· + ·) rfl (Finset.sum_congr rfl fun k _ => congrArg y (GroupOps.lift_last redLast b g k))

/-- A group's mean at its only place. -/
theorem mean_apply (y : FVec Ideal S16x32x32768 .f32) (b : Fin 16) (g : Fin 32) (u : Fin 1) :
    mean y (ix3 b g u) = meanR y b g := by
  unfold mean meanR
  exact congrArg₂ Ideal.div (total_apply y b g u) rfl

/-- A per-group value repeated along its group reads the group's value. -/
theorem spread_apply (z : FVec Ideal S16x32x1 .f32) (b : Fin 16) (g : Fin 32) (j : Fin 32768) :
    spread z (ix3 b g j) = z (ix3 b g (0 : Fin 1)) := by
  unfold spread
  refine broadcastInDim_apply _ _ _ _ (ix3 b g (0 : Fin 1)) fun a => ?_
  match a with
  | ⟨0, _⟩ => rfl
  | ⟨1, _⟩ => rfl
  | ⟨2, _⟩ => rfl

/-- A centred entry: the entry less its group's mean. -/
theorem centred_apply (y : FVec Ideal S16x32x32768 .f32) (b : Fin 16) (g : Fin 32) (j : Fin 32768) :
    centred y (ix3 b g j) = y (ix3 b g j) - meanR y b g := by
  unfold centred
  exact (subf_apply _ _ _).trans (congrArg (y (ix3 b g j) - ·) ((spread_apply _ b g j).trans (mean_apply y b g 0)))

/-- A group's variance at its only place. -/
theorem variance_apply (y : FVec Ideal S16x32x32768 .f32) (b : Fin 16) (g : Fin 32) (u : Fin 1) :
    variance y (ix3 b g u) = varR y b g := by
  show Scalar.select (Ideal.cmp .ogt cnt (Ideal.ofBits .f32 0x00000000#32))
      (Ideal.div (total (mulf (centred y) (centred y)) (ix3 b g u)) cnt) (Ideal.ofBits .f32 0x7FC00000#32) = varR y b g
  unfold varR
  refine congrArg (fun t => Scalar.select (Ideal.cmp .ogt cnt (Ideal.ofBits .f32 0x00000000#32)) (Ideal.div t cnt)
    (Ideal.ofBits .f32 0x7FC00000#32)) ?_
  refine (total_apply _ b g u).trans ?_
  unfold gsum
  exact congrArg (Ideal.ofBits .f32 0x00000000#32 + ·) (Finset.sum_congr rfl fun j _ =>
    (mulf_apply _ _ _).trans (congrArg₂ (· * ·) (centred_apply y b g j) (centred_apply y b g j)))

/-- A normalised entry: centred, times the reciprocal square root of its group's variance plus the stabiliser. -/
theorem normed_apply (y : FVec Ideal S16x32x32768 .f32) (b : Fin 16) (g : Fin 32) (j : Fin 32768) :
    normed y (ix3 b g j) = (y (ix3 b g j) - meanR y b g) * Ideal.rsqrt (varR y b g + eps) := by
  unfold normed
  refine (mulf_apply _ _ _).trans (congrArg₂ (· * ·) (centred_apply y b g j) ?_)
  refine (spread_apply _ b g j).trans ?_
  show Ideal.rsqrt (variance y (ix3 b g (0 : Fin 1)) + Ideal.ofBits .f32 0x358637BD#32) = _
  exact congrArg (fun t => Ideal.rsqrt (t + eps)) (variance_apply y b g 0)

/-! ## The regroupings -/

/-- Entry j of group (b, g) is pixel j mod 4096 of the group's channel number j / 4096. -/
theorem grouped_apply (x : FVec Ideal S16x256x64x64 .f32) (b : Fin 16) (g : Fin 32) (j : Fin 32768) :
    grouped x (ix3 b g j) = xf x b (chan g (hi j)) (lo j) := by
  unfold grouped
  refine shapeCast_apply x _ _ _ ?_
  rw [Shape.rowMajor_val_four, Shape.rowMajor_val_three]
  show ((b.val * 256 + (8 * g.val + j.val / 4096)) * 64 + j.val % 4096 / 64) * 64 + j.val % 4096 % 64
    = (b.val * 32 + g.val) * 32768 + j.val
  have := j.isLt
  omega

/-- Entry (b, c, n) of the flattened normalised array is entry 4096·(c mod 8) + n of group (b, c / 8). -/
theorem flat_apply (x : FVec Ideal S16x256x64x64 .f32) (b : Fin 16) (c : Fin 256) (n : Fin 4096) :
    flat x (ix3 b c n) = normed (grouped x) (ix3 b (grp c)
      (⟨4096 * (sub c).val + n.val, by have := (sub c).isLt; have := n.isLt; omega⟩ : Fin 32768)) := by
  unfold flat
  refine (shapeCast_apply _ _ _ (ix4 b c (⟨n.val / 64, by have := n.isLt; omega⟩ : Fin 64)
    (⟨n.val % 64, by have := n.isLt; omega⟩ : Fin 64)) ?_).trans ?_
  · rw [Shape.rowMajor_val_four, Shape.rowMajor_val_three]
    show ((b.val * 256 + c.val) * 64 + n.val / 64) * 64 + n.val % 64 = (b.val * 256 + c.val) * 4096 + n.val
    have := n.isLt
    omega
  · refine shapeCast_apply _ _ _ _ ?_
    rw [Shape.rowMajor_val_three, Shape.rowMajor_val_four]
    show (b.val * 32 + c.val / 8) * 32768 + (4096 * (c.val % 8) + n.val)
      = ((b.val * 256 + c.val) * 64 + n.val / 64) * 64 + n.val % 64
    have := n.isLt
    have := c.isLt
    omega

/-! ## The second argument's three pieces -/

/-- Entry (b, c, r) of the first matrix is entry 12·c + r of row b. -/
theorem uOf_apply (p : FVec Ideal S16x6400 .f32) (b : Fin 16) (c : Fin 256) (r : Fin 12) :
    uOf p (ix3 b c r) = uE p b c r := by
  unfold uOf
  refine (shapeCast_apply _ _ _ (ix2 b (⟨12 * c.val + r.val, by have := c.isLt; have := r.isLt; omega⟩ : Fin 3072)) ?_).trans ?_
  · rw [Shape.rowMajor_val_two, Shape.rowMajor_val_three]
    show b.val * 3072 + (12 * c.val + r.val) = (b.val * 256 + c.val) * 12 + r.val
    omega
  · refine extractStridedSlice_apply _ _ _ _ _ fun a => ?_
    match a with
    | ⟨0, _⟩ => show b.val = 0 + b.val; omega
    | ⟨1, _⟩ => show 12 * c.val + r.val = 0 + (12 * c.val + r.val); omega

/-- Entry (b, c, r) of the second matrix is entry 3072 + 12·c + r of row b. -/
theorem vOf_apply (p : FVec Ideal S16x6400 .f32) (b : Fin 16) (c : Fin 256) (r : Fin 12) :
    vOf p (ix3 b c r) = vE p b c r := by
  unfold vOf
  refine (shapeCast_apply _ _ _ (ix2 b (⟨12 * c.val + r.val, by have := c.isLt; have := r.isLt; omega⟩ : Fin 3072)) ?_).trans ?_
  · rw [Shape.rowMajor_val_two, Shape.rowMajor_val_three]
    show b.val * 3072 + (12 * c.val + r.val) = (b.val * 256 + c.val) * 12 + r.val
    omega
  · refine extractStridedSlice_apply _ _ _ _ _ fun a => ?_
    match a with
    | ⟨0, _⟩ => show b.val = 0 + b.val; omega
    | ⟨1, _⟩ => show 3072 + (12 * c.val + r.val) = 3072 + (12 * c.val + r.val); rfl

/-- Entry (b, c, 0, 0) of the shift is entry 6144 + c of row b. -/
theorem shiftOf_apply (p : FVec Ideal S16x6400 .f32) (b : Fin 16) (c : Fin 256) (u v : Fin 1) :
    shiftOf p (ix4 b c u v) = sE p b c := by
  unfold shiftOf
  refine (shapeCast_apply _ _ _ (ix2 b c) ?_).trans ?_
  · have hu : u.val = 0 := by omega
    have hv : v.val = 0 := by omega
    rw [Shape.rowMajor_val_two, Shape.rowMajor_val_four]
    show b.val * 256 + c.val = ((b.val * 256 + c.val) * 1 + u.val) * 1 + v.val
    omega
  · refine extractStridedSlice_apply _ _ _ _ _ fun a => ?_
    match a with
    | ⟨0, _⟩ => show b.val = 0 + b.val; omega
    | ⟨1, _⟩ => show 6144 + c.val = 6144 + c.val; rfl

/-! ## The two contractions -/

/-- The first contraction runs over the 256 channels: batch axis b, the left operand's free axis r, the right
    operand's free axis n. -/
theorem vtx_apply (x : FVec Ideal S16x256x64x64 .f32) (p : FVec Ideal S16x6400 .f32) (b : Fin 16) (r : Fin 12) (n : Fin 4096) :
    vtx x p (ix3 b r n) = ∑ c : Fin 256, vE p b c r * flat x (ix3 b c n) := by
  unfold vtx
  have hc : (dot_S16x256x12_S16x256x4096_S16x12x4096_1_1_2_2_0_0).lhsContracting = [(1 : Fin 3)] := rfl
  have hc' : (dot_S16x256x12_S16x256x4096_S16x12x4096_1_1_2_2_0_0).rhsContracting = [(1 : Fin 3)] := rfl
  refine (DotRead.dotGeneral_read dot_S16x256x12_S16x256x4096_S16x12x4096_1_1_2_2_0_0 256
    (DotRead.contr_rank_one _ hc) (DotRead.contr_size_one _ hc) none _ (vOf p) (flat x) (ix3 b r n)
    (fun k => ix3 b k r) (fun k => ix3 b k n) (fun k => ?_) (fun k => ?_)).trans ?_
  · funext a; apply Fin.ext
    match a with
    | ⟨0, _⟩ => exact DotRead.lhs_batch_val dot_S16x256x12_S16x256x4096_S16x12x4096_1_1_2_2_0_0 (ix3 b r n) _ (0 : Fin 3) (by decide) (0 : Fin 3) (by decide)
    | ⟨1, _⟩ => exact DotRead.lhs_contr_val _ 256 _ _ hc _ k
    | ⟨2, _⟩ => exact DotRead.lhs_free_val dot_S16x256x12_S16x256x4096_S16x12x4096_1_1_2_2_0_0 (ix3 b r n) _ (2 : Fin 3) (by decide) (by decide) (1 : Fin 3) (by decide)
  · funext a; apply Fin.ext
    match a with
    | ⟨0, _⟩ => exact DotRead.rhs_batch_val dot_S16x256x12_S16x256x4096_S16x12x4096_1_1_2_2_0_0 (ix3 b r n) _ (0 : Fin 3) (by decide) (0 : Fin 3) (by decide)
    | ⟨1, _⟩ => exact DotRead.rhs_contr_val _ 256 _ _ hc' _ k
    | ⟨2, _⟩ => exact DotRead.rhs_free_val dot_S16x256x12_S16x256x4096_S16x12x4096_1_1_2_2_0_0 (ix3 b r n) _ (2 : Fin 3) (by decide) (by decide) (2 : Fin 3) (by decide)
  · exact Finset.sum_congr rfl fun c _ => congrArg (· * flat x (ix3 b c n)) (vOf_apply p b c r)

/-- The second contraction runs over the 12 directions: batch axis b, the left operand's free axis c, the right
    operand's free axis n. -/
theorem mixed_apply (x : FVec Ideal S16x256x64x64 .f32) (p : FVec Ideal S16x6400 .f32) (b : Fin 16) (c : Fin 256) (n : Fin 4096) :
    mixed x p (ix3 b c n) = ∑ r : Fin 12, uE p b c r * vtx x p (ix3 b r n) := by
  unfold mixed
  have hc : (dot_S16x256x12_S16x12x4096_S16x256x4096_2_1_1_2_0_0).lhsContracting = [(2 : Fin 3)] := rfl
  have hc' : (dot_S16x256x12_S16x12x4096_S16x256x4096_2_1_1_2_0_0).rhsContracting = [(1 : Fin 3)] := rfl
  refine (DotRead.dotGeneral_read dot_S16x256x12_S16x12x4096_S16x256x4096_2_1_1_2_0_0 12
    (DotRead.contr_rank_one _ hc) (DotRead.contr_size_one _ hc) none _ (uOf p) (vtx x p) (ix3 b c n)
    (fun k => ix3 b c k) (fun k => ix3 b k n) (fun k => ?_) (fun k => ?_)).trans ?_
  · funext a; apply Fin.ext
    match a with
    | ⟨0, _⟩ => exact DotRead.lhs_batch_val dot_S16x256x12_S16x12x4096_S16x256x4096_2_1_1_2_0_0 (ix3 b c n) _ (0 : Fin 3) (by decide) (0 : Fin 3) (by decide)
    | ⟨1, _⟩ => exact DotRead.lhs_free_val dot_S16x256x12_S16x12x4096_S16x256x4096_2_1_1_2_0_0 (ix3 b c n) _ (1 : Fin 3) (by decide) (by decide) (1 : Fin 3) (by decide)
    | ⟨2, _⟩ => exact DotRead.lhs_contr_val _ 12 _ _ hc _ k
  · funext a; apply Fin.ext
    match a with
    | ⟨0, _⟩ => exact DotRead.rhs_batch_val dot_S16x256x12_S16x12x4096_S16x256x4096_2_1_1_2_0_0 (ix3 b c n) _ (0 : Fin 3) (by decide) (0 : Fin 3) (by decide)
    | ⟨1, _⟩ => exact DotRead.rhs_contr_val _ 12 _ _ hc' _ k
    | ⟨2, _⟩ => exact DotRead.rhs_free_val dot_S16x256x12_S16x12x4096_S16x256x4096_2_1_1_2_0_0 (ix3 b c n) _ (2 : Fin 3) (by decide) (by decide) (2 : Fin 3) (by decide)
  · exact Finset.sum_congr rfl fun r _ => congrArg (· * vtx x p (ix3 b r n)) (uOf_apply p b c r)

/-! ## The result -/

/-- Entry (b, c, h, w) of the result: the flattened normalised entry at pixel 64·h + w plus its correction, plus
    the channel's shift. -/
theorem refOut_apply (x : FVec Ideal S16x256x64x64 .f32) (p : FVec Ideal S16x6400 .f32) (b : Fin 16) (c : Fin 256) (h w : Fin 64) :
    refOut x p (ix4 b c h w) = (flat x (ix3 b c (pix h w)) + mixed x p (ix3 b c (pix h w))) + sE p b c := by
  unfold refOut
  refine (addf_apply _ _ _).trans (congrArg₂ (· + ·) ?_ ?_)
  · refine (shapeCast_apply _ _ _ (ix3 b c (pix h w)) ?_).trans (addf_apply _ _ _)
    rw [Shape.rowMajor_val_three, Shape.rowMajor_val_four]
    show (b.val * 256 + c.val) * 4096 + (64 * h.val + w.val) = ((b.val * 256 + c.val) * 64 + h.val) * 64 + w.val
    omega
  · refine (broadcastInDim_apply _ _ _ _ (ix4 b c (0 : Fin 1) (0 : Fin 1)) fun a => ?_).trans (shiftOf_apply p b c 0 0)
    match a with
    | ⟨0, _⟩ => rfl
    | ⟨1, _⟩ => rfl
    | ⟨2, _⟩ => rfl
    | ⟨3, _⟩ => rfl

end Cert.ReferenceIdeal.RefRead

end
-- ==== Proof.RefVal.lean ====
/-
  The reference's result is the same function of the arguments, when the image entries are real numbers.

  Read at an index the reference normalises each group of 32768 consecutive entries by its mean and its variance, the
  variance taken about the mean and both obtained by division by 32768; the specification scales sums by 2^(-15) and takes
  the variance as the mean of the squares less the square of the mean.  For real entries the two agree (the variance
  identity of real algebra), so the normalised entries agree; the projection, the mixing and the shift are then the same
  sums of the same products on both sides.  Only the image needs real entries: the parameter row enters through products
  that are spelt alike on both sides.
-/
import proofs.«164726_j807453851999_2_alg».proof.Proof.RefRead
import proofs.«164726_j807453851999_2_alg».proof.Proof.VarLaw
import proofs.«164726_j807453851999_2_alg».proof.Proof.Spec

noncomputable section

namespace Cert.ReferenceIdeal.RefVal

open Cert.ReferenceIdeal Cert.ReferenceIdeal.RefTerm Cert.ReferenceIdeal.RefRead Cert.GroupMix
open Idealize.ShloMosaic Idealize.ShloMosaic.ValueIdx

variable (x : FVec Ideal S16x256x64x64 .f32) (p : FVec Ideal S16x6400 .f32)
variable (rx : S16x256x64x64.Idx → ℝ) (hrx : ∀ i, x i = ((rx i : ℝ) : EReal))

/-- Group g of image b as real numbers, by row and place. -/
def rgroup (b : Fin 16) (g : Fin 32) : Fin 8 → Fin 4096 → ℝ := fun k n =>
  rx (ix4 b (chan g k) ⟨n.val / 64, by have := n.isLt; omega⟩ ⟨n.val % 64, Nat.mod_lt _ (by norm_num)⟩)

include hrx in
theorem xf_real (b : Fin 16) (g : Fin 32) (k : Fin 8) (n : Fin 4096) :
    xf x b (chan g k) n = ((rgroup rx b g k n : ℝ) : EReal) := hrx _

include hrx in
/-- The mean by division is the mean by the reciprocal. -/
theorem mean_eq (b : Fin 16) (g : Fin 32) : meanR (grouped x) b g = bmean (xf x b) g := by
  unfold meanR gsum bmean
  simp only [grouped_apply, xf_real x rx hrx]
  exact mean_law (rgroup rx b g)

include hrx in
/-- The variance about the mean is the mean of the squares less the square of the mean. -/
theorem var_eq (b : Fin 16) (g : Fin 32) : varR (grouped x) b g = bvar (xf x b) g := by
  have hc : Ideal.cmp .ogt cnt (Ideal.ofBits .f32 0x00000000#32) = 1#1 := by
    unfold cnt; rw [count_eq]; exact count_pos
  unfold varR
  rw [hc, select_one, mean_eq x rx hrx b g]
  have hm : bmean (xf x b) g = (((∑ k : Fin 8, ∑ n : Fin 4096, rgroup rx b g k n) / 32768 : ℝ) : EReal) := by
    unfold bmean
    simp only [xf_real x rx hrx]
    exact meanK_eq (rgroup rx b g)
  unfold bvar gsum cnt
  rw [hm]
  simp only [grouped_apply, xf_real x rx hrx]
  exact var_law (rgroup rx b g) _ rfl

include hrx in
/-- The normalised entries agree. -/
theorem flat_eq (b : Fin 16) (c : Fin 256) (n : Fin 4096) : flat x (ix3 b c n) = bnorm (xf x b) c n := by
  rw [flat_apply, normed_apply, grouped_apply, mean_eq x rx hrx, var_eq x rx hrx]
  have hk : hi (⟨4096 * (sub c).val + n.val, by have := (sub c).isLt; have := n.isLt; omega⟩ : Fin 32768) = sub c :=
    Fin.ext (by show (4096 * (sub c).val + n.val) / 4096 = (sub c).val; have := n.isLt; omega)
  have hn : lo (⟨4096 * (sub c).val + n.val, by have := (sub c).isLt; have := n.isLt; omega⟩ : Fin 32768) = n :=
    Fin.ext (by show (4096 * (sub c).val + n.val) % 4096 = n.val; have := n.isLt; omega)
  rw [hk, hn, chan_grp_sub]
  rfl

include hrx in
/-- The reference's result is the specification's. -/
theorem ref_eq : refOut (F := Ideal) x p = G x p := by
  funext i
  obtain ⟨b, c, h, w, rfl⟩ : ∃ (b : Fin 16) (c : Fin 256) (h w : Fin 64), i = ix4 b c h w := ⟨i 0, i 1, i 2, i 3, eq_ix4 i⟩
  rw [refOut_apply, G_apply, mixed_apply, flat_eq x rx hrx]
  unfold bout bmix bproj
  refine congrArg (fun s => bnorm (xf x b) c (pix h w) + s + sE p b c) (Finset.sum_congr rfl fun r _ => ?_)
  rw [vtx_apply]
  refine congrArg (uE p b c r * ·) (Finset.sum_congr rfl fun c' _ => ?_)
  rw [flat_eq x rx hrx]

/-- The same from the bare statement that every image entry is a real number. -/
theorem ref_eq_of_real (hx : ∀ i, ∃ r : ℝ, x i = (r : EReal)) : refOut (F := Ideal) x p = G x p := by
  choose rx hrx using hx
  exact ref_eq x p rx hrx

end Cert.ReferenceIdeal.RefVal

end
-- ==== Proof.Finite.lean ====
/-
  From the precondition on the inputs to "every entry is a real number".

  The precondition is the conjunction, over both argument arrays, of `|a| < +∞` at every entry, printed as
  two reductions by `and` of the entrywise comparisons joined by one more `and`. At the ideal values a float
  is an extended real, the absolute value is `max a (-a)` and the comparison is the order's: an entry whose
  absolute value is strictly below `⊤` is neither `⊥` nor `⊤`, hence a real.
-/
import proofs.«164726_j807453851999_2_alg».proof.Pre_finite_inputs
import proofs.«164726_j807453851999_2_alg».proof.Proof.Gen.Pre_finite_inputs
import Idealize.ShloMosaic.PureOps.Ideal.Laws
import Idealize.ShloMosaic.Lib.ReduceAll
import Idealize.ShloMosaic.Lib.ValueIdx

namespace Cert.Finite

open Idealize.ShloMosaic

/-- The single-precision pattern with all exponent bits set, sign and fraction clear, denotes `+∞`. -/
theorem ofBits_inf : Ideal.ofBits .f32 0x7F800000#32 = ⊤ := by simp [Ideal.ofBits, Ideal.ieee]

/-- A shape of rank zero has exactly one index. -/
instance : Subsingleton Cert.Pre_finite_inputs.S_.Idx := ⟨fun a b => funext fun d => d.elim0⟩

/-- The ordered "less than" comparison of extended reals answers 1 only when the strict inequality holds. -/
theorem lt_of_cmp_olt (a b : EReal) (h : Ideal.cmp .olt a b = 1#1) : a < b := by
  by_contra hn
  simp [Ideal.cmp, hn] at h

/-- An extended real whose absolute value `max a (-a)` is strictly below `⊤` is a real: at `⊥` the
    negation is `⊤`, at `⊤` the value itself is, and either makes the maximum `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The entry fact: the printed comparison `|a| < +∞` answering 1 at the ideal values makes `a` a real. -/
theorem real_of_entry (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max a (-a)) (Ideal.ofBits .f32 0x7F800000#32) = 1#1 := h
  rw [ofBits_inf] at h'
  exact real_of_abs_lt_top a (lt_of_cmp_olt _ _ h')

/-- If the precondition's function answers 1 on the two argument arrays at the ideal values, every entry of
    both is a real: the final `and` gives both reductions 1, a reduction by `and` over all axes that is 1 had
    a 1 at every entry, and an entry's 1 is the comparison `|a| < +∞`. -/
theorem real_of_pre (x : FVec Ideal Cert.Pre_finite_inputs.S16x256x64x64 .f32) (p : FVec Ideal Cert.Pre_finite_inputs.S16x6400 .f32)
    (h : Cert.Pre_finite_inputs.fn (F := Ideal) x p = fun _ => 1#1) :
    (∀ i, ∃ r : ℝ, x i = (r : EReal)) ∧ (∀ j, ∃ r : ℝ, p j = (r : EReal)) := by
  have h0 := congrFun h ValueIdx.ix0
  dsimp only [Cert.Pre_finite_inputs.fn] at h0
  obtain ⟨hx, hp⟩ := IntOp.andi_eq_one.1 h0
  exact ⟨fun i => real_of_entry (x i) (Host.reduce_andi_all _ _ _ _ _ hx i),
    fun j => real_of_entry (p j) (Host.reduce_andi_all _ _ _ _ _ hp j)⟩

end Cert.Finite
-- ==== Proof.lean ====
/-
  The kernel and its reference compute one function.

  Under the precondition that every input entry is a finite number, the idealized kernel and the idealized reference,
  run from memories agreeing on the two arguments, both end with the result at `Cert.GroupMix.G` of the arguments: per
  image and per group of 8 channels the entries are normalised by the group's mean and variance, projected onto 12
  directions and mixed back by two matrices cut from the parameter row, and shifted per channel.

  The kernel side: each grid point stages one image and writes that image of the result (Proof/KerPay.lean reads the stored
  value entry by entry; Proof/KerArr.lean assembles the sixteen images and the final restoring of the 64 × 64 planes).
  The reference side: its run is the composition of its operations (Proof/RefTerm.lean, Proof/RefRun.lean), read entry by
  entry (Proof/RefRead.lean); it takes the variance about the mean where the kernel takes the mean of the squares less the
  square of the mean, and the two agree on real data (Proof/VarLaw.lean, Proof/RefVal.lean), which is where the
  precondition is used (Proof/Finite.lean).  The ideal pass rewrote nothing, so the idealization claim is trivial, and the
  three frames are the generated ones and the reference's run with its result forgotten.
-/
import proofs.«164726_j807453851999_2_alg».proof.Defs
import proofs.«164726_j807453851999_2_alg».proof.Proof.Gen.Kernel
import proofs.«164726_j807453851999_2_alg».proof.Proof.Gen.Kernel.Skeleton
import proofs.«164726_j807453851999_2_alg».proof.Proof.Gen.Kernel.Launch
import proofs.«164726_j807453851999_2_alg».proof.Proof.Gen.Kernel.Points
import proofs.«164726_j807453851999_2_alg».proof.Proof.Gen.Kernel.Frame
import proofs.«164726_j807453851999_2_alg».proof.Proof.Gen.KernelIdeal
import proofs.«164726_j807453851999_2_alg».proof.Proof.Gen.KernelIdeal.Skeleton
import proofs.«164726_j807453851999_2_alg».proof.Proof.Gen.KernelIdeal.Launch
import proofs.«164726_j807453851999_2_alg».proof.Proof.Gen.KernelIdeal.Points
import proofs.«164726_j807453851999_2_alg».proof.Proof.Gen.KernelIdeal.Frame
import proofs.«164726_j807453851999_2_alg».proof.Proof.Gen.ReferenceIdeal
import proofs.«164726_j807453851999_2_alg».proof.Proof.Gen.Pre_finite_inputs
import proofs.«164726_j807453851999_2_alg».proof.Proof.KerArr
import proofs.«164726_j807453851999_2_alg».proof.Proof.RefRun
import proofs.«164726_j807453851999_2_alg».proof.Proof.RefVal
import proofs.«164726_j807453851999_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at `G` of the arguments; the reference's needs the image's entries real, which the precondition gives. -/
theorem algebraic : Cert.algebraic_KernelIdeal_ReferenceIdeal := by
  intro m ρ m' ρ' hpre hagree
  refine ⟨fun c => Cert.GroupMix.G (Cert.KernelIdeal.Arr.xA m c) (Cert.KernelIdeal.Arr.pA m c),
    Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefVal.ref_eq_of_real _ _ (Cert.Finite.real_of_pre _ _ (hpre c)).1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
